-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x4096x512 .f32) (main_arg1 : FVec F S512x512 .f32) (main_arg2 : FVec F S512x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S16x4096x512 : Shape := ⟨3, ![16, 4096, 512]⟩
abbrev S512x512 : Shape := ⟨2, ![512, 512]⟩
abbrev S65536x512 : Shape := ⟨2, ![65536, 512]⟩
abbrev S1x1 : Shape := ⟨2, ![1, 1]⟩
abbrev S2048x512 : Shape := ⟨2, ![2048, 512]⟩
abbrev S1x2048x512 : Shape := ⟨3, ![1, 2048, 512]⟩
abbrev S1 : Shape := ⟨1, ![1]⟩
abbrev S1x1x1 : Shape := ⟨3, ![1, 1, 1]⟩
abbrev S_ : Shape := ⟨0, ![]⟩

abbrev nBuf : Space → Nat
  | .hbm => 38
  | .vmem => 17
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512x512, .f32⟩
  | .hbm, ⟨3, _⟩ => ⟨S65536x512, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S512x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .bf16⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S1x1, .f32⟩
  | .hbm, ⟨33, _⟩ => ⟨S1x1, .f32⟩
  | .hbm, ⟨34, _⟩ => ⟨S65536x512, .f32⟩
  | .hbm, ⟨35, _⟩ => ⟨S65536x512, .f32⟩
  | .hbm, ⟨36, _⟩ => ⟨S16x4096x512, .f32⟩
  | .hbm, ⟨37, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S1x1, .f32⟩
  | .local _ .vmem, ⟨3, _⟩ => ⟨S1x1, .f32⟩
  | .local _ .vmem, ⟨4, _⟩ => ⟨S2048x512, .f32⟩
  | .local _ .vmem, ⟨5, _⟩ => ⟨S2048x512, .f32⟩
  | .local _ .vmem, ⟨6, _⟩ => ⟨S1x1, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1x1, .f32⟩
  | .local _ .vmem, ⟨12, _⟩ => ⟨S1x1, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem8_1 : DmaSem sig := 13
abbrev cc1_sem9_0 : DmaSem sig := 14
abbrev cc1_sem9_1 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v16 : BitVec 1 := Scalar.cmpi .eq arg0 c31_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S16x4096x512_S65536x512 : S16x4096x512.ShapeCasts S65536x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  bcast_S_S1x1 : S_.BroadcastsInDim S1x1 (![] : Fin 0 → Fin S1x1.rank)
  reducesTo_S512x512_S_d0_1 : S512x512.ReducesTo [0, 1] S_
  h_S_ : 0 < S_.numel
  bcast_S_S512x512 : S_.BroadcastsInDim S512x512 (![] : Fin 0 → Fin S512x512.rank)
  bitsLt_bf16_f32 : FTy.bits .bf16 < FTy.bits .f32
  shapeCasts_S_S1x1 : S_.ShapeCasts S1x1
  inpos_S1x1_p0_0 : ∀ a, (![0, 0] : Fin 2 → Nat) a < S1x1.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S65536x512_S16x4096x512 : S65536x512.ShapeCasts S16x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S65536x512.size a
  hwx1_8 : ∀ i : grid1.Coords, EltTy.bits .f32 = 32 ∨ (Rect.block (s := S65536x512) S2048x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x512.size a ≤ S65536x512.size a
  hwx1_9 : ∀ i : grid1.Coords, EltTy.bits .f32 = 32 ∨ (Rect.block (s := S65536x512) S2048x512.size (cc1_transform_9 i) (hinb1_9 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26_0) S2048x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v26_1) S2048x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512x512, .f32⟩
  | .hbm, ⟨3, _⟩ => ⟨S16x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x4096x512, .f32⟩
  | .hbm, ⟨9, _⟩ => ⟨S16x4096x512, .f32⟩
  | .hbm, ⟨10, _⟩ => ⟨S16x4096x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x4096x512, .f32⟩
  | .hbm, ⟨15, _⟩ => ⟨S16x4096x512, .f32⟩
  | .hbm, ⟨16, _⟩ => ⟨S_, .f32⟩
  | .hbm, ⟨17, _⟩ => ⟨S16x4096x512, .f32⟩
  | .hbm, ⟨18, _⟩ => ⟨S16x4096x512, .f32⟩
  | .hbm, ⟨19, _⟩ => ⟨S512x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S16x4096x512, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S_, .f32⟩
  | .hbm, ⟨42, _⟩ => ⟨S16x4096x512, .f32⟩
  | .hbm, ⟨43, _⟩ => ⟨S16x4096x512, .f32⟩
  | .hbm, ⟨44, _⟩ => ⟨S16x4096x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x4096x512, .f32⟩
  | .hbm, ⟨50, _⟩ => ⟨S16x4096x512, .f32⟩
  | .hbm, ⟨51, _⟩ => ⟨S16x4096x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x4096x512, .f32⟩
  | .hbm, ⟨56, _⟩ => ⟨S16x4096x512, .f32⟩
  | .hbm, ⟨57, _⟩ => ⟨S_, .f32⟩
  | .hbm, ⟨58, _⟩ => ⟨S16x4096x512, .f32⟩
  | .hbm, ⟨59, _⟩ => ⟨S16x4096x512, .f32⟩
  | .hbm, ⟨60, _⟩ => ⟨S512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S_, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S_, .f32⟩
  | .hbm, ⟨73, _⟩ => ⟨S512x512, .f32⟩
  | .hbm, ⟨74, _⟩ => ⟨S512x512, .f32⟩
  | .hbm, ⟨75, _⟩ => ⟨S512x512, .f32⟩
  | .hbm, ⟨76, _⟩ => ⟨S16x4096x512, .f32⟩
  | .hbm, ⟨77, _⟩ => ⟨S_, .f32⟩
  | .hbm, ⟨78, _⟩ => ⟨S16x4096x512, .f32⟩
  | .hbm, ⟨79, _⟩ => ⟨S16x4096x512, .f32⟩
  | .hbm, ⟨80, _⟩ => ⟨S16x4096x512, .f32⟩
  | .hbm, ⟨81, _⟩ => ⟨S16x4096x512, .f32⟩
  | .hbm, ⟨82, _⟩ => ⟨S_, .f32⟩
  | .hbm, ⟨83, _⟩ => ⟨S16x4096x512, .f32⟩
  | .hbm, ⟨84, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_cst_11 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_cst_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]

class Facts₀ : Prop where
  reducesTo_S16x4096x512_S_d0_1_2 : S16x4096x512.ReducesTo [0, 1, 2] S_
  h_S_ : 0 < S_.numel
  bcast_S_S16x4096x512 : S_.BroadcastsInDim S16x4096x512 (![] : Fin 0 → Fin S16x4096x512.rank)
  reducesTo_S512x512_S_d0_1 : S512x512.ReducesTo [0, 1] S_
  bcast_S_S512x512 : S_.BroadcastsInDim S512x512 (![] : Fin 0 → Fin S512x512.rank)
  dot_S16x4096x512_S512x512_S16x4096x512_2_0_01_1_n_n_wf : DotDims.WF S16x4096x512 S512x512 S16x4096x512 [2] [0] [0, 1] [1] [] []

variable [Facts₀]

def dot_S16x4096x512_S512x512_S16x4096x512_2_0_01_1_n_n : DotDims S16x4096x512 S512x512 S16x4096x512 where
  lhsContracting := [2]
  rhsContracting := [0]
  lhsNonContracting := [0, 1]
  rhsNonContracting := [1]
  lhsBatch := []
  rhsBatch := []
  wf := dot_S16x4096x512_S512x512_S16x4096x512_2_0_01_1_n_n_wf

class Facts : Prop extends Facts₀ where

variable [Facts]
-- ==== Proof.AbsmaxRuns.lean ====
import proofs.«134259_j19490561590113_1_alg».proof.Proof.Gen.KernelIdeal.Launch
import proofs.«134259_j19490561590113_1_alg».proof.Proof.Gen.KernelIdeal.Skeleton
import proofs.«134259_j19490561590113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the 32 grid points -/

/-- The first conditional is taken exactly at the first point (the accumulator is reset there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second conditional is taken exactly at the last point (the accumulator is copied out there). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
/-- Away from the last point the 1x1 output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S1x1 .f32 := (Memref.whole cc0_stg1_0 : Memref sig .tc .vmem S1x1 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The 1x1 accumulator the kernel keeps between grid points. -/
abbrev scM0_0 : Memref sig .tc .vmem S1x1 .f32 := Memref.whole cc0_scratch0
abbrev VS0_0 : View sig .tc .vmem S1x1 .f32 := scM0_0.view

/-- The scoped buffers of the second call (its staging buffers), each whole at some contents: the first call's
    kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

/-! ## The body run once per control case -/

set_option maxHeartbeats 1000000 in
/-- FIRST POINT: the accumulator is reset to zero, then raised to the block's largest absolute value; the output
    window is left alone. The statement carries the list of pieces written into the accumulator, last first. -/
noncomputable def kernelRun0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S2048x512 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨[], ?_, fun xi1 E K => ?run⟩
  case run =>
    simp only [cc0__absmax_kernel_eq_skeleton]; unfold cc0__absmax_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, at what the point before left, is raised to the block's largest absolute value. -/
noncomputable def kernelRun0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S2048x512 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨[], ?_, fun xi1 E K => ?run⟩
  case run =>
    simp only [cc0__absmax_kernel_eq_skeleton]; unfold cc0__absmax_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT: the accumulator is raised once more and copied into the output window. -/
noncomputable def kernelRun0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S2048x512 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨?_, ?_, fun E K => ?run⟩
  case run =>
    simp only [cc0__absmax_kernel_eq_skeleton]; unfold cc0__absmax_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.AbsmaxBody.lean ====
import proofs.«134259_j19490561590113_1_alg».proof.Proof.AbsmaxRuns
import proofs.«134259_j19490561590113_1_alg».proof.Proof.Gen.KernelIdeal.Launch
import proofs.«134259_j19490561590113_1_alg».proof.Proof.Gen.KernelIdeal.Skeleton
import proofs.«134259_j19490561590113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output window -/

/-- What the first point leaves in the accumulator: its pieces read back. -/
def sout0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i) (x0 : Vec F S2048x512 .f32) : Vec F S1x1 .f32 :=
  VS0_0.read (Elt F) (VS0_0.writes (Elt F) VS0_0.junk (kernelRun0_A c i arg1 harg1 arg2 harg2 arg3 harg3 hc0 hc1 x0).2.1)
/-- What a middle point leaves in the accumulator. -/
def sout0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i) (x0 : Vec F S2048x512 .f32) (xs0 : Vec F S1x1 .f32) : Vec F S1x1 .f32 :=
  VS0_0.read (Elt F) (VS0_0.writes (Elt F) VS0_0.junk (kernelRun0_B c i arg1 harg1 arg2 harg2 arg3 harg3 hc0 hc1 x0 xs0).2.1)
/-- What the last point leaves in the accumulator, -/
def sout0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) : Vec F S1x1 .f32 :=
  VS0_0.read (Elt F) (VS0_0.writes (Elt F) VS0_0.junk (kernelRun0_C c i arg1 harg1 arg2 harg2 arg3 harg3 hc0 hc1 x0 xs0).2.1)
/-- and in the output window's staging buffer. -/
def out0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) : Vec F S1x1 .f32 :=
  VO0_1.read (Elt F) (VO0_1.writes (Elt F) VO0_1.junk (kernelRun0_C c i arg1 harg1 arg2 harg2 arg3 harg3 hc0 hc1 x0 xs0).1)
/-- At the other points the output window holds nothing that is consulted. -/
def out0_idle : Vec F S1x1 .f32 := VO0_1.read (Elt F) VO0_1.junk

/-- The pieces each case leaves tile the 1x1 buffer, so they cover it. -/
theorem scover0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i) (x0 : Vec F S2048x512 .f32) (y : S1x1.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x1.size (by sl_kernel_rfl) y
theorem scover0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i) (x0 : Vec F S2048x512 .f32) (xs0 : Vec F S1x1 .f32) (y : S1x1.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x1.size (by sl_kernel_rfl) y
theorem scover0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) (y : S1x1.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x1.size (by sl_kernel_rfl) y
theorem cover0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-! ## The conditions at the first point and after it -/

theorem c0_zero (hn : 0 < cfg0.N) : cond0_0 (grid0.coords ⟨0, hn⟩) := (hcond0_0 ⟨0, hn⟩).mpr (Nat.zero_mod _)
theorem nc1_zero (hn : 0 < cfg0.N) : ¬cond0_1 (grid0.coords ⟨0, hn⟩) := fun h => by
  have h' : (0 : ℕ) % 32 = 31 := (hcond0_1 ⟨0, hn⟩).mp h
  omega
theorem nc0_succ (n : ℕ) (hn : n + 1 < cfg0.N) : ¬cond0_0 (grid0.coords ⟨n + 1, hn⟩) := fun h => by
  have h' : (n + 1) % 32 = 0 := (hcond0_0 ⟨n + 1, hn⟩).mp h
  have hN : n + 1 < 32 := lt_of_lt_of_eq hn (show cfg0.N = 32 from N_0)
  omega

section
variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output window's buffer and the accumulator hold after each point -/

/-- After point `n`: the output window's staging buffer (only the last point's is ever consulted) and the accumulator,
    which at the first point starts from zero and at every later point from what the point before left. -/
def outsAt0 (c : Dev nD) : (n : ℕ) → n < cfg0.N → Vec F S1x1 .f32 × Vec F S1x1 .f32
  | 0, hn => (out0_idle, sout0_A c (grid0.coords ⟨0, hn⟩) (ms0_0 ⟨0, hn⟩) (hs0_0 ⟨0, hn⟩) (ms0_1 ⟨0, hn⟩) (hs0_1 ⟨0, hn⟩) scM0_0 (Memref.isWhole_whole _) (c0_zero hn) (nc1_zero hn) (iblk0 V c 0 ⟨0, hn⟩))
  | n + 1, hn =>
    if h1 : (n + 1) % 32 = 31 then
      (out0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) ((hcond0_1 ⟨n + 1, hn⟩).mpr h1) (iblk0 V c 0 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) ((hcond0_1 ⟨n + 1, hn⟩).mpr h1) (iblk0 V c 0 ⟨n + 1, hn⟩) (outsAt0 c n (Nat.lt_of_succ_lt hn)).2)
    else
      (out0_idle, sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (hz : t.val = 0) (hc0 : cond0_0 (grid0.coords t)) (hc1 : ¬cond0_1 (grid0.coords t)) :
    outsAt0 V c t.val t.isLt = (out0_idle, sout0_A c (grid0.coords t) (ms0_0 t) (hs0_0 t) (ms0_1 t) (hs0_1 t) scM0_0 (Memref.isWhole_whole _) hc0 hc1 (iblk0 V c 0 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 32 = 31) (hc0 : ¬cond0_0 (grid0.coords t)) (hc1 : ¬cond0_1 (grid0.coords t)) :
    outsAt0 V c t.val t.isLt = (out0_idle, sout0_B c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 32 = 31) (hc0 : ¬cond0_0 (grid0.coords t)) (hc1 : cond0_1 (grid0.coords t)) :
    outsAt0 V c t.val t.isLt = (out0_C c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2,
      sout0_C c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2) := by
  obtain ⟨n, hn⟩ := t
  cases n with
  | zero => exact absurd rfl hz
  | succ n => exact (dif_pos h1).trans rfl

/-- The region invariant before position `n`: before the first point the accumulator holds anything; afterwards it
    holds what the point before left. The second call's scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ otherScoped c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ otherScoped c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position says which case it is in; the
    invariant hands the body the accumulator at what the point before left (at anything at the first point) and takes it
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 1 t (idleAt0_1 t hc1) (noFlush0_1 t hc1)]
    rw [outsAt0_A V c t hz hc0 hc1]
    unfold sout0_A; (try dsimp only)
    rw [PhiS0_castSucc V c t, PhiS0_zero V c _ _ hz, PhiA0_eq]
    iintro ⟨⟨⟨HS0, Hoth⟩, Hg⟩, Ho, ⟨%d0, H0⟩, ⟨%d1, H1⟩⟩
    iapply ((kernelRun0_A c (grid0.coords t) _ _ _ _ _ _ hc0 hc1 (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _)
        iexact Hoth
      iexact Hg
    isplitl [Ho]; · iexact Ho
    isplitl [H0]; · iexact H0
    iexists _; iexact H1
  · have hc0 : ¬cond0_0 (grid0.coords t) := fun h => hz (by have := (hcond0_0 t).mp h; omega)
    by_cases h1 : t.val % 32 = 31
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [outsAt0_C V c t hz h1 hc0 hc1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [outsAt0_B V c t hz h1 hc0 hc1]
      unfold sout0_B; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ hc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end

end Cert.KernelIdeal.Hand

end
-- ==== Proof.QmmBody.lean ====
import proofs.«134259_j19490561590113_1_alg».proof.Proof.Gen.KernelIdeal.Launch
import proofs.«134259_j19490561590113_1_alg».proof.Proof.Gen.KernelIdeal.Skeleton
import proofs.«134259_j19490561590113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The quantised matmul region: its body's triple and proof data

The second region's kernel reads eight input windows whole (the activation block, the activation scale,
four weight planes, two weight scales) and writes each of its two output windows whole, once. At a
parameter `V` — the buffer contents when the region is entered — this file gives each window's block at a
grid point, the contents of each output's staging buffer after the body as a function of the input blocks,
the body's separation-logic triple, the pipeline's proof data, and the body obligation at every point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rX : Rect S2048x512 := Rect.unit (s := S2048x512) ![0, 0] S2048x512.size inb_S2048x512_S2048x512_0_0
abbrev rS : Rect S1x1 := Rect.unit (s := S1x1) ![0, 0] S1x1.size inb_S1x1_S1x1_0_0
abbrev rW : Rect S512x512 := Rect.unit (s := S512x512) ![0, 0] S512x512.size inb_S512x512_S512x512_0_0

/-! ## What the body leaves in each output window's buffer -/

/-- The first output's staging buffer after the body, from the input windows' blocks: its one store. -/
def out1_8 (x0 : Vec F S2048x512 .f32) (x1 : Vec F S1x1 .f32) (x2 x3 : Vec F S512x512 .bf16) (x6 : Vec F S1x1 .f32) : Vec F S2048x512 .f32 :=
  View.canon [⟨rX, k1_pay1 (k1_pay7 (View.ld x1 rS) (View.ld x0 rX) (View.ld x2 rW) (View.ld x3 rW)) (k1_pay9 (View.ld x1 rS) (View.ld x6 rS))⟩]

/-- The second output's staging buffer after the body, from the input windows' blocks: its one store. -/
def out1_9 (x0 : Vec F S2048x512 .f32) (x1 : Vec F S1x1 .f32) (x4 x5 : Vec F S512x512 .bf16) (x7 : Vec F S1x1 .f32) : Vec F S2048x512 .f32 :=
  View.canon [⟨rX, k1_pay2 (k1_pay3 (View.ld x1 rS)) (k1_pay8 (View.ld x1 rS) (View.ld x0 rX) (View.ld x4 rW) (View.ld x5 rW)) (View.ld x7 rS)⟩]

/-- The one store is of the whole buffer, so it covers it. -/
theorem cover1_X (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y

/-! ## The body's triple -/

set_option maxHeartbeats 4000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S2048x512 .f32) (harg0 : arg0.IsWhole) (arg1 : Memref sig .tc .vmem S1x1 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S2048x512 .f32) (harg8 : arg8.IsWhole) (arg9 : Memref sig .tc .vmem S2048x512 .f32) (harg9 : arg9.IsWhole)
    (x0 : Vec F S2048x512 .f32) (x1 : Vec F S1x1 .f32) (x2 : Vec F S512x512 .bf16) (x3 : Vec F S512x512 .bf16) (x4 : Vec F S512x512 .bf16) (x5 : Vec F S512x512 .bf16) (x6 : Vec F S1x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x6) ∗ owns (c : Thread nD τ) arg9 fullShare (out1_9 x0 x1 x4 x5 x7)) -∗ K ⟨⟩))
      ⊢ wp frame (wpE (defs₀ (F := F)) Variants.none c none) E (cc1__qmm_kernel i arg0 harg0 arg1 harg1 arg2 harg2 arg3 harg3 arg4 harg4 arg5 harg5 arg6 harg6 arg7 harg7 arg8 harg8 arg9 harg9) K := by
  simp only [cc1__qmm_kernel_eq_skeleton]; unfold cc1__qmm_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_X _)
  iexists _; isplitr
  swap; · iexact H9
  ipureintro
  try dsimp only
  exact View.read_writes_eq_canon _ _ _ (cover1_X _)

/-! ## The pipeline's proof data -/

/-- The proof data of the region's pipeline on core `c`: the arrays as the region finds them (`V`); after the body
    at point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 6 t)
    | ⟨9, _⟩ => out1_9 (iblk1 V c 0 t) (iblk1 V c 1 t) (iblk1 V c 4 t) (iblk1 V c 5 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 6 t) := by dsimp only [dat1]
theorem after1_9 (c : Dev nD) (t : Fin cfg1.N) : (dat1 V c).after 9 t = out1_9 (iblk1 V c 0 t) (iblk1 V c 1 t) (iblk1 V c 4 t) (iblk1 V c 5 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.Launches.lean ====
import proofs.«134259_j19490561590113_1_alg».proof.Proof.Gen.KernelIdeal.Launch
import proofs.«134259_j19490561590113_1_alg».proof.Proof.Gen.KernelIdeal.Skeleton
import proofs.«134259_j19490561590113_1_alg».proof.Proof.Gen.KernelIdeal.Points
import proofs.«134259_j19490561590113_1_alg».proof.Proof.Gen.KernelIdeal.Regions
import proofs.«134259_j19490561590113_1_alg».proof.Proof.AbsmaxBody
import proofs.«134259_j19490561590113_1_alg».proof.Proof.QmmBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: nine segments from the launch to the return

@main is a host stretch, the first kernel region (the global maximum of |x|), five host stretches (the scales and
the split of the two weight matrices), the second kernel region (quantize and multiply) and a last host stretch.
The buffer contents at each segment boundary are a fold from the launch memory: a host stretch maps the contents
by `StableHlo.after`, a region leaves its arrays at what its write-backs fold to and every other buffer as entered.
Over the thread state "every unscoped buffer at the boundary's contents, the generator register at some state,
nothing owed" the segments chain, and the final memory is read off the last boundary's contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- Region 0's entry contents, read at the TensorCore's references (what its proof data take). -/
abbrev E0 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents, read at the TensorCore's references. -/
abbrev X0 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4` (region 1's entry). -/
abbrev W7 : Dev nD → Valuation τ sig (Elt F) := fun c => StableHlo.after hostOps1_4 (W6 m ρ c)
/-- Region 1's entry contents, read at the TensorCore's references (what its proof data take). -/
abbrev E1 : (c : Dev nD) → (b : Ref sig .tc) → Buf (Elt F) ((c : Thread nD τ).loc b) := fun c b => W7 m ρ c b
/-- At region 1's exit: its arrays at what the pipeline leaves (the inputs as entered, each output's write-backs
    folded), every other buffer as entered. -/
def W8 (c : Dev nD) : Valuation τ sig (Elt F) :=
  Pipeline.withArrays spec1 c (W7 m ρ c) fun w => (dat1 (E1 m ρ) c).arrAt w cfg1.N
theorem W8_arr (c : Dev nD) (w : Fin cfg1.W) :
    W8 m ρ c (Proc.devRef .tc (Pipeline.arrRef spec1 w)) = (dat1 (E1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- Region 1's exit contents, read at the TensorCore's references. -/
abbrev X1 : (c : Dev nD) → (b : Ref sig .tc) → Buf (Elt F) ((c : Thread nD τ).loc b) := fun c b => W8 m ρ c b
theorem hF1 (c : Dev nD) (w : Fin cfg1.W) : (dat1 (E1 m ρ) c).arrAt w cfg1.N = X1 m ρ c (Pipeline.arrRef spec1 w) :=
  (W8_arr m ρ c w).symm
theorem hrest1 (c : Dev nD) : ∀ b, b ∉ Finset.univ.image (Pipeline.arrRef spec1) → X1 m ρ c b = E1 m ρ c b :=
  fun b hb => W8_of_ne m ρ c b fun w e => hb (Finset.mem_image.mpr ⟨w, Finset.mem_univ _, e⟩)
/-- After `hostOps2` (the return). -/
abbrev W9 : Dev nD → Valuation τ sig (Elt F) := fun c => StableHlo.after hostOps2 (W8 m ρ c)

/-! ### The arguments end as launched: no host operation writes one and none is an array of a region, so the fold
    at an argument's buffer walks back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1_4 _ hostOps1_4_writes (by decide)
    _ = W5 m ρ c (Proc.devRef .tc main_arg2) := StableHlo.after_of_writes_sub hostOps1_3 _ hostOps1_3_writes (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents: a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays
    split out of the unscoped buffers and are put back at the exit contents; the generator register goes into the
    region's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun w => A_eq0 (E0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (E0 m ρ) c)
  hout c := by
    rw [Pipeline.ownSems0_none]
    refine (show (pdats m ρ 0 c).Φ (Fin.last _) ⊢ (Pipeline.ΦA spec0 c : sProp 𝕄) from hout0 (E0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays
    split out of the unscoped buffers and are put back at the exit contents; the generator register goes into the
    region's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun w => A_eq1 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]
/-- @main IS the run of the segments: it is the chain of its items, and the segments' run is the chain of their
    programs, which are those items. -/
theorem main_run (c : Dev nD) : main (F := F) c = Pipeline.Seg.run (segs m ρ) := by
  rw [main_chain c, Pipeline.Seg.run_eq_chain]
  rfl

set_option backward.isDefEq.respectTransparency.types false in
/-- THE RUN: at the compiled mesh, from any memory with zero counters, every weakly fair execution of @main on the
    TensorCores terminates, nothing faulting, and every final state has every unscoped buffer at the last boundary's
    contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every weakly fair execution of @main terminates, nothing faulting, and every final state has the
    three argument arrays as launched: each is an unscoped buffer, read at `W9`, which walks back to the launch
    memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c)⟩) (run_all m ρ)

end Cert.KernelIdeal.Hand

end
-- ==== Proof.AbsmaxRunsBits.lean ====
import proofs.«134259_j19490561590113_1_alg».proof.Proof.Gen.Kernel.Launch
import proofs.«134259_j19490561590113_1_alg».proof.Proof.Gen.Kernel.Skeleton
import proofs.«134259_j19490561590113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the 32 grid points -/

/-- The first conditional is taken exactly at the first point (the accumulator is reset there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second conditional is taken exactly at the last point (the accumulator is copied out there). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
/-- Away from the last point the 1x1 output window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S1x1 .f32 := (Memref.whole cc0_stg1_0 : Memref sig .tc .vmem S1x1 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The 1x1 accumulator the kernel keeps between grid points. -/
abbrev scM0_0 : Memref sig .tc .vmem S1x1 .f32 := Memref.whole cc0_scratch0
abbrev VS0_0 : View sig .tc .vmem S1x1 .f32 := scM0_0.view

/-- The scoped buffers of the second call (its staging buffers), each whole at some contents: the first call's
    kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

/-! ## The body run once per control case -/

set_option maxHeartbeats 1000000 in
/-- FIRST POINT: the accumulator is reset to zero, then raised to the block's largest absolute value; the output
    window is left alone. The statement carries the list of pieces written into the accumulator, last first. -/
noncomputable def kernelRun0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S2048x512 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨[], ?_, fun xi1 E K => ?run⟩
  case run =>
    simp only [cc0__absmax_kernel_eq_skeleton]; unfold cc0__absmax_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, at what the point before left, is raised to the block's largest absolute value. -/
noncomputable def kernelRun0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S2048x512 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨[], ?_, fun xi1 E K => ?run⟩
  case run =>
    simp only [cc0__absmax_kernel_eq_skeleton]; unfold cc0__absmax_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT: the accumulator is raised once more and copied into the output window. -/
noncomputable def kernelRun0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S2048x512 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__absmax_kernel i arg1 harg1 arg2 harg2 arg3 harg3) K } := by
  refine ⟨?_, ?_, fun E K => ?run⟩
  case run =>
    simp only [cc0__absmax_kernel_eq_skeleton]; unfold cc0__absmax_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.AbsmaxBodyBits.lean ====
import proofs.«134259_j19490561590113_1_alg».proof.Proof.AbsmaxRunsBits
import proofs.«134259_j19490561590113_1_alg».proof.Proof.Gen.Kernel.Launch
import proofs.«134259_j19490561590113_1_alg».proof.Proof.Gen.Kernel.Skeleton
import proofs.«134259_j19490561590113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output window -/

/-- What the first point leaves in the accumulator: its pieces read back. -/
def sout0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i) (x0 : Vec F S2048x512 .f32) : Vec F S1x1 .f32 :=
  VS0_0.read (Elt F) (VS0_0.writes (Elt F) VS0_0.junk (kernelRun0_A c i arg1 harg1 arg2 harg2 arg3 harg3 hc0 hc1 x0).2.1)
/-- What a middle point leaves in the accumulator. -/
def sout0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i) (x0 : Vec F S2048x512 .f32) (xs0 : Vec F S1x1 .f32) : Vec F S1x1 .f32 :=
  VS0_0.read (Elt F) (VS0_0.writes (Elt F) VS0_0.junk (kernelRun0_B c i arg1 harg1 arg2 harg2 arg3 harg3 hc0 hc1 x0 xs0).2.1)
/-- What the last point leaves in the accumulator, -/
def sout0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) : Vec F S1x1 .f32 :=
  VS0_0.read (Elt F) (VS0_0.writes (Elt F) VS0_0.junk (kernelRun0_C c i arg1 harg1 arg2 harg2 arg3 harg3 hc0 hc1 x0 xs0).2.1)
/-- and in the output window's staging buffer. -/
def out0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) : Vec F S1x1 .f32 :=
  VO0_1.read (Elt F) (VO0_1.writes (Elt F) VO0_1.junk (kernelRun0_C c i arg1 harg1 arg2 harg2 arg3 harg3 hc0 hc1 x0 xs0).1)
/-- At the other points the output window holds nothing that is consulted. -/
def out0_idle : Vec F S1x1 .f32 := VO0_1.read (Elt F) VO0_1.junk

/-- The pieces each case leaves tile the 1x1 buffer, so they cover it. -/
theorem scover0_A (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i) (x0 : Vec F S2048x512 .f32) (y : S1x1.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x1.size (by sl_kernel_rfl) y
theorem scover0_B (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i) (x0 : Vec F S2048x512 .f32) (xs0 : Vec F S1x1 .f32) (y : S1x1.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x1.size (by sl_kernel_rfl) y
theorem scover0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) (y : S1x1.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x1.size (by sl_kernel_rfl) y
theorem cover0_C (c : Dev nD) (i : grid0.Coords) (arg1 : Memref sig .tc .vmem S2048x512 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i) (x0 : Vec F S2048x512 .f32) (xs0 : Vec F S1x1 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-! ## The conditions at the first point and after it -/

theorem c0_zero (hn : 0 < cfg0.N) : cond0_0 (grid0.coords ⟨0, hn⟩) := (hcond0_0 ⟨0, hn⟩).mpr (Nat.zero_mod _)
theorem nc1_zero (hn : 0 < cfg0.N) : ¬cond0_1 (grid0.coords ⟨0, hn⟩) := fun h => by
  have h' : (0 : ℕ) % 32 = 31 := (hcond0_1 ⟨0, hn⟩).mp h
  omega
theorem nc0_succ (n : ℕ) (hn : n + 1 < cfg0.N) : ¬cond0_0 (grid0.coords ⟨n + 1, hn⟩) := fun h => by
  have h' : (n + 1) % 32 = 0 := (hcond0_0 ⟨n + 1, hn⟩).mp h
  have hN : n + 1 < 32 := lt_of_lt_of_eq hn (show cfg0.N = 32 from N_0)
  omega

section
variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the output window's buffer and the accumulator hold after each point -/

/-- After point `n`: the output window's staging buffer (only the last point's is ever consulted) and the accumulator,
    which at the first point starts from zero and at every later point from what the point before left. -/
def outsAt0 (c : Dev nD) : (n : ℕ) → n < cfg0.N → Vec F S1x1 .f32 × Vec F S1x1 .f32
  | 0, hn => (out0_idle, sout0_A c (grid0.coords ⟨0, hn⟩) (ms0_0 ⟨0, hn⟩) (hs0_0 ⟨0, hn⟩) (ms0_1 ⟨0, hn⟩) (hs0_1 ⟨0, hn⟩) scM0_0 (Memref.isWhole_whole _) (c0_zero hn) (nc1_zero hn) (iblk0 V c 0 ⟨0, hn⟩))
  | n + 1, hn =>
    if h1 : (n + 1) % 32 = 31 then
      (out0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) ((hcond0_1 ⟨n + 1, hn⟩).mpr h1) (iblk0 V c 0 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) ((hcond0_1 ⟨n + 1, hn⟩).mpr h1) (iblk0 V c 0 ⟨n + 1, hn⟩) (outsAt0 c n (Nat.lt_of_succ_lt hn)).2)
    else
      (out0_idle, sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (nc0_succ n hn) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (hz : t.val = 0) (hc0 : cond0_0 (grid0.coords t)) (hc1 : ¬cond0_1 (grid0.coords t)) :
    outsAt0 V c t.val t.isLt = (out0_idle, sout0_A c (grid0.coords t) (ms0_0 t) (hs0_0 t) (ms0_1 t) (hs0_1 t) scM0_0 (Memref.isWhole_whole _) hc0 hc1 (iblk0 V c 0 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 32 = 31) (hc0 : ¬cond0_0 (grid0.coords t)) (hc1 : ¬cond0_1 (grid0.coords t)) :
    outsAt0 V c t.val t.isLt = (out0_idle, sout0_B c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 32 = 31) (hc0 : ¬cond0_0 (grid0.coords t)) (hc1 : cond0_1 (grid0.coords t)) :
    outsAt0 V c t.val t.isLt = (out0_C c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2,
      sout0_C c (grid0.coords t) (ms0_0 t) (hs0_0 t) (ms0_1 t) (hs0_1 t) scM0_0 (Memref.isWhole_whole _) hc0 hc1 (iblk0 V c 0 t) (outsAt0 V c (t.val - 1) (Nat.lt_of_le_of_lt (Nat.sub_le _ _) t.isLt)).2) := by
  obtain ⟨n, hn⟩ := t
  cases n with
  | zero => exact absurd rfl hz
  | succ n => exact (dif_pos h1).trans rfl

/-- The region invariant before position `n`: before the first point the accumulator holds anything; afterwards it
    holds what the point before left. The second call's scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ otherScoped c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ otherScoped c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position says which case it is in; the
    invariant hands the body the accumulator at what the point before left (at anything at the first point) and takes it
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dat0 V c) 1 t (idleAt0_1 t hc1) (noFlush0_1 t hc1)]
    rw [outsAt0_A V c t hz hc0 hc1]
    unfold sout0_A; (try dsimp only)
    rw [PhiS0_castSucc V c t, PhiS0_zero V c _ _ hz, PhiA0_eq]
    iintro ⟨⟨⟨HS0, Hoth⟩, Hg⟩, Ho, ⟨%d0, H0⟩, ⟨%d1, H1⟩⟩
    iapply ((kernelRun0_A c (grid0.coords t) _ _ _ _ _ _ hc0 hc1 (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _)
        iexact Hoth
      iexact Hg
    isplitl [Ho]; · iexact Ho
    isplitl [H0]; · iexact H0
    iexists _; iexact H1
  · have hc0 : ¬cond0_0 (grid0.coords t) := fun h => hz (by have := (hcond0_0 t).mp h; omega)
    by_cases h1 : t.val % 32 = 31
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [outsAt0_C V c t hz h1 hc0 hc1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ hc0 hc1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1)]
      rw [outsAt0_B V c t hz h1 hc0 hc1]
      unfold sout0_B; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ hc0 hc1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end

end Cert.Kernel.Hand

end
-- ==== Proof.QmmBodyBits.lean ====
import proofs.«134259_j19490561590113_1_alg».proof.Proof.Gen.Kernel.Launch
import proofs.«134259_j19490561590113_1_alg».proof.Proof.Gen.Kernel.Skeleton
import proofs.«134259_j19490561590113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The quantised matmul region: its body's triple and proof data

The second region's kernel reads eight input windows whole (the activation block, the activation scale,
four weight planes, two weight scales) and writes each of its two output windows whole, once. At a
parameter `V` — the buffer contents when the region is entered — this file gives each window's block at a
grid point, the contents of each output's staging buffer after the body as a function of the input blocks,
the body's separation-logic triple, the pipeline's proof data, and the body obligation at every point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rX : Rect S2048x512 := Rect.unit (s := S2048x512) ![0, 0] S2048x512.size inb_S2048x512_S2048x512_0_0
abbrev rS : Rect S1x1 := Rect.unit (s := S1x1) ![0, 0] S1x1.size inb_S1x1_S1x1_0_0
abbrev rW : Rect S512x512 := Rect.unit (s := S512x512) ![0, 0] S512x512.size inb_S512x512_S512x512_0_0

/-! ## What the body leaves in each output window's buffer -/

/-- The first output's staging buffer after the body, from the input windows' blocks: its one store. -/
def out1_8 (x0 : Vec F S2048x512 .f32) (x1 : Vec F S1x1 .f32) (x2 x3 : Vec F S512x512 .bf16) (x6 : Vec F S1x1 .f32) : Vec F S2048x512 .f32 :=
  View.canon [⟨rX, k1_pay1 (k1_pay7 (View.ld x1 rS) (View.ld x0 rX) (View.ld x2 rW) (View.ld x3 rW)) (k1_pay9 (View.ld x1 rS) (View.ld x6 rS))⟩]

/-- The second output's staging buffer after the body, from the input windows' blocks: its one store. -/
def out1_9 (x0 : Vec F S2048x512 .f32) (x1 : Vec F S1x1 .f32) (x4 x5 : Vec F S512x512 .bf16) (x7 : Vec F S1x1 .f32) : Vec F S2048x512 .f32 :=
  View.canon [⟨rX, k1_pay2 (k1_pay3 (View.ld x1 rS)) (k1_pay8 (View.ld x1 rS) (View.ld x0 rX) (View.ld x4 rW) (View.ld x5 rW)) (View.ld x7 rS)⟩]

/-- The one store is of the whole buffer, so it covers it. -/
theorem cover1_X (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y

/-! ## The body's triple -/

set_option maxHeartbeats 4000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S2048x512 .f32) (harg0 : arg0.IsWhole) (arg1 : Memref sig .tc .vmem S1x1 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S2048x512 .f32) (harg8 : arg8.IsWhole) (arg9 : Memref sig .tc .vmem S2048x512 .f32) (harg9 : arg9.IsWhole)
    (x0 : Vec F S2048x512 .f32) (x1 : Vec F S1x1 .f32) (x2 : Vec F S512x512 .bf16) (x3 : Vec F S512x512 .bf16) (x4 : Vec F S512x512 .bf16) (x5 : Vec F S512x512 .bf16) (x6 : Vec F S1x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x6) ∗ owns (c : Thread nD τ) arg9 fullShare (out1_9 x0 x1 x4 x5 x7)) -∗ K ⟨⟩))
      ⊢ wp frame (wpE (defs₀ (F := F)) Variants.none c none) E (cc1__qmm_kernel i arg0 harg0 arg1 harg1 arg2 harg2 arg3 harg3 arg4 harg4 arg5 harg5 arg6 harg6 arg7 harg7 arg8 harg8 arg9 harg9) K := by
  simp only [cc1__qmm_kernel_eq_skeleton]; unfold cc1__qmm_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_X _)
  iexists _; isplitr
  swap; · iexact H9
  ipureintro
  try dsimp only
  exact View.read_writes_eq_canon _ _ _ (cover1_X _)

/-! ## The pipeline's proof data -/

/-- The proof data of the region's pipeline on core `c`: the arrays as the region finds them (`V`); after the body
    at point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 6 t)
    | ⟨9, _⟩ => out1_9 (iblk1 V c 0 t) (iblk1 V c 1 t) (iblk1 V c 4 t) (iblk1 V c 5 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 6 t) := by dsimp only [dat1]
theorem after1_9 (c : Dev nD) (t : Fin cfg1.N) : (dat1 V c).after 9 t = out1_9 (iblk1 V c 0 t) (iblk1 V c 1 t) (iblk1 V c 4 t) (iblk1 V c 5 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.LaunchesBits.lean ====
import proofs.«134259_j19490561590113_1_alg».proof.Proof.Gen.Kernel.Launch
import proofs.«134259_j19490561590113_1_alg».proof.Proof.Gen.Kernel.Skeleton
import proofs.«134259_j19490561590113_1_alg».proof.Proof.Gen.Kernel.Points
import proofs.«134259_j19490561590113_1_alg».proof.Proof.Gen.Kernel.Regions
import proofs.«134259_j19490561590113_1_alg».proof.Proof.AbsmaxBodyBits
import proofs.«134259_j19490561590113_1_alg».proof.Proof.QmmBodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: nine segments from the launch to the return

@main is a host stretch, the first kernel region (the global maximum of |x|), five host stretches (the scales and
the split of the two weight matrices), the second kernel region (quantize and multiply) and a last host stretch.
The buffer contents at each segment boundary are a fold from the launch memory: a host stretch maps the contents
by `StableHlo.after`, a region leaves its arrays at what its write-backs fold to and every other buffer as entered.
Over the thread state "every unscoped buffer at the boundary's contents, the generator register at some state,
nothing owed" the segments chain, and the final memory is read off the last boundary's contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- Region 0's entry contents, read at the TensorCore's references (what its proof data take). -/
abbrev E0 : (c : Dev nD) → (b : Ref sig .tc) → Buf (Elt F) ((c : Thread nD τ).loc b) := fun c b => W1 m ρ c b
/-- At region 0's exit: its arrays at what the pipeline leaves (the input as entered, the output's write-backs
    folded), every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents, read at the TensorCore's references. -/
abbrev X0 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4` (region 1's entry). -/
abbrev W7 : Dev nD → Valuation τ sig (Elt F) := fun c => StableHlo.after hostOps1_4 (W6 m ρ c)
/-- Region 1's entry contents, read at the TensorCore's references (what its proof data take). -/
abbrev E1 : (c : Dev nD) → (b : Ref sig .tc) → Buf (Elt F) ((c : Thread nD τ).loc b) := fun c b => W7 m ρ c b
/-- At region 1's exit: its arrays at what the pipeline leaves (the inputs as entered, each output's write-backs
    folded), every other buffer as entered. -/
def W8 (c : Dev nD) : Valuation τ sig (Elt F) :=
  Pipeline.withArrays spec1 c (W7 m ρ c) fun w => (dat1 (E1 m ρ) c).arrAt w cfg1.N
theorem W8_arr (c : Dev nD) (w : Fin cfg1.W) :
    W8 m ρ c (Proc.devRef .tc (Pipeline.arrRef spec1 w)) = (dat1 (E1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- Region 1's exit contents, read at the TensorCore's references. -/
abbrev X1 : (c : Dev nD) → (b : Ref sig .tc) → Buf (Elt F) ((c : Thread nD τ).loc b) := fun c b => W8 m ρ c b
theorem hF1 (c : Dev nD) (w : Fin cfg1.W) : (dat1 (E1 m ρ) c).arrAt w cfg1.N = X1 m ρ c (Pipeline.arrRef spec1 w) :=
  (W8_arr m ρ c w).symm
theorem hrest1 (c : Dev nD) : ∀ b, b ∉ Finset.univ.image (Pipeline.arrRef spec1) → X1 m ρ c b = E1 m ρ c b :=
  fun b hb => W8_of_ne m ρ c b fun w e => hb (Finset.mem_image.mpr ⟨w, Finset.mem_univ _, e⟩)
/-- After `hostOps2` (the return). -/
abbrev W9 : Dev nD → Valuation τ sig (Elt F) := fun c => StableHlo.after hostOps2 (W8 m ρ c)

/-! ### The arguments end as launched: no host operation writes one and none is an array of a region, so the fold
    at an argument's buffer walks back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1_4 _ hostOps1_4_writes (by decide)
    _ = W5 m ρ c (Proc.devRef .tc main_arg2) := StableHlo.after_of_writes_sub hostOps1_3 _ hostOps1_3_writes (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents: a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays
    split out of the unscoped buffers and are put back at the exit contents; the generator register goes into the
    region's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun w => A_eq0 (E0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (E0 m ρ) c)
  hout c := by
    rw [Pipeline.ownSems0_none]
    refine (show (pdats m ρ 0 c).Φ (Fin.last _) ⊢ (Pipeline.ΦA spec0 c : sProp 𝕄) from hout0 (E0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays
    split out of the unscoped buffers and are put back at the exit contents; the generator register goes into the
    region's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun w => A_eq1 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]
/-- @main IS the run of the segments: it is the chain of its items, and the segments' run is the chain of their
    programs, which are those items. -/
theorem main_run (c : Dev nD) : main (F := F) c = Pipeline.Seg.run (segs m ρ) := by
  rw [main_chain c, Pipeline.Seg.run_eq_chain]
  rfl

set_option backward.isDefEq.respectTransparency.types false in
/-- THE RUN: at the compiled mesh, from any memory with zero counters, every weakly fair execution of @main on the
    TensorCores terminates, nothing faulting, and every final state has every unscoped buffer at the last boundary's
    contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every weakly fair execution of @main terminates, nothing faulting, and every final state has the
    three argument arrays as launched: each is an unscoped buffer, read at `W9`, which walks back to the launch
    memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c)⟩) (run_all m ρ)

end Cert.Kernel.Hand

end
-- ==== Proof.Spec.lean ====
/-
  The mathematics both programs compute, over the extended reals.

  An activation array is quantized to 16-bit integers at the scale  s = (max |x|) / 32767 :
  each entry becomes  clamp (round (x / s))  to  [-32768, 32767].  A weight matrix is quantized
  the same way without clamping:  wq = round (w / ws),  ws = (max |w|) / 32767.  One output entry is a
  row of quantized activations against a column of quantized weights, times  s * ws.

  The two programs split the product differently.  One writes  wq = hi + lo  with  hi = wq  and
  lo = wq - wq,  and the row  xq = xh + xl  with  xh = xq,  xl = xq - xq,  and adds three of the four
  cross products (`outSplit`).  The other writes  wq = hi * 256 + lo  with  hi = floor (wq / 256),
  lo = wq - hi * 256  (`outPlanes`).  Over the reals both are  sum_k xq k * wq k.
-/
import Idealize.ShloMosaic.PureOps.Ideal
import Idealize.ShloMosaic.Lib.ValueIdx

noncomputable section

namespace Cert.QuantMatmul

open Idealize.ShloMosaic Idealize.ShloMosaic.ValueIdx

/-- A 512 x 512 weight matrix's index set. -/
abbrev SW : Shape := ⟨2, ![512, 512]⟩

/-- The float words of 32767, -32768 and 256 as extended reals. -/
def qmax : EReal := Ideal.ofBits .f32 0x46FFFE00#32
def qmin : EReal := Ideal.ofBits .f32 0xC7000000#32
def c256 : EReal := Ideal.ofBits .f32 0x43800000#32

/-- Rounding to the nearest integer, ties to even; and the integer part from below. -/
def rnd (x : EReal) : EReal := Ideal.liftRound Ideal.roundHalfEven x
def flr (x : EReal) : EReal := Ideal.liftRound Int.floor x

/-- The absolute value, and the largest absolute value of an array (the supremum over its entries). -/
def absE (x : EReal) : EReal := max x (-x)
def amax {ι : Type} (x : ι → EReal) : EReal := ⨆ i, absE (x i)

/-- The quantization step of an array whose largest absolute value is `M`. -/
def scale (M : EReal) : EReal := Ideal.div M qmax

/-- One activation quantized at step `s`: rounded, then clamped to the 16-bit range. -/
def quant (s x : EReal) : EReal := min qmax (max qmin (rnd (Ideal.div x s)))

/-- A weight matrix quantized at its own step. -/
def wquant (w : SW.Idx → EReal) : SW.Idx → EReal := fun j => rnd (Ideal.div (w j) (scale (amax w)))

/-- One output entry, the product split as high and low parts of both factors, the low-low term dropped:
    `xrow` the activations' row, `Wh`, `Wl` the weight's two parts, column `q`. -/
def outSplit (s : EReal) (xrow : Fin 512 → EReal) (Wh Wl : SW.Idx → EReal) (ws : EReal) (q : Fin 512) : EReal :=
  ((∑ k : Fin 512, quant s (xrow k) * Wh (ix2 k q) + ∑ k : Fin 512, quant s (xrow k) * Wl (ix2 k q))
    + ∑ k : Fin 512, (quant s (xrow k) - quant s (xrow k)) * Wh (ix2 k q)) * (s * ws)

/-- One output entry, the weight split into two 8-bit planes  wq = hi * 256 + lo. -/
def outPlanes (s : EReal) (xrow : Fin 512 → EReal) (wq : SW.Idx → EReal) (ws : EReal) (q : Fin 512) : EReal :=
  ((∑ k : Fin 512, quant s (xrow k) * flr (Ideal.div (wq (ix2 k q)) c256)) * c256
    + ∑ k : Fin 512, quant s (xrow k) * (wq (ix2 k q) - flr (Ideal.div (wq (ix2 k q)) c256) * c256)) * (s * ws)

end Cert.QuantMatmul

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.QmmValue.lean ====
import proofs.«134259_j19490561590113_1_alg».proof.Proof.QmmBody
import proofs.«134259_j19490561590113_1_alg».proof.Proof.Spec
import proofs.«134259_j19490561590113_1_alg».proof.Proof.LibSplit
import Idealize.ShloMosaic.Lib.Pipeline.Value
import Idealize.ShloMosaic.Lib.Tactic

/-! # The quantised matmul region: what it leaves in its two output arrays

Over the extended reals, each output array of the region is one function of the arrays the region finds:
entry (r, q) is the row r of the activations, quantised at the activation scale, against column q of the
weight's two parts — three of the four cross products — times the product of the two scales.
First the body's payload read at an entry of a block, then the blocks put together: block t holds rows
2048 t … 2048 t + 2047, and the 32 blocks cover the array. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The payloads at an entry -/

theorem off_zero : (![0, 0] : Fin 2 → Nat) = fun _ => 0 := funext fun a => by fin_cases a <;> rfl

/-- The entry of a one-entry array. -/
theorem extract_one {α : Type} (v : S1x1.Idx → α) (h : ∀ a, (![0, 0] : Fin 2 → Nat) a < S1x1.size a) :
    extractAt ![0, 0] v h = v (ix2 0 0) :=
  congrArg v (funext fun a => by fin_cases a <;> rfl)

/-- The quantised activation block, entry by entry. -/
theorem pay4_apply (v0 : Vec Ideal S1x1 .f32) (v2 : Vec Ideal S2048x512 .f32) (i : S2048x512.Idx) :
    k1_pay4 v0 v2 i = Cert.QuantMatmul.quant (v0 (ix2 0 0)) (v2 i) := by
  unfold k1_pay4 k1_pay3 Cert.QuantMatmul.quant Cert.QuantMatmul.rnd Cert.QuantMatmul.qmax Cert.QuantMatmul.qmin
  dsimp only
  rw [shapeCast_self, extract_one]
  rfl

/-- Its high part is itself, its low part the difference from itself. -/
theorem pay5_apply (v0 : Vec Ideal S1x1 .f32) (v2 : Vec Ideal S2048x512 .f32) (i : S2048x512.Idx) :
    k1_pay5 v0 v2 i = Cert.QuantMatmul.quant (v0 (ix2 0 0)) (v2 i) := pay4_apply v0 v2 i

theorem pay6_apply (v0 : Vec Ideal S1x1 .f32) (v2 : Vec Ideal S2048x512 .f32) (i : S2048x512.Idx) :
    k1_pay6 v0 v2 i = Cert.QuantMatmul.quant (v0 (ix2 0 0)) (v2 i) - Cert.QuantMatmul.quant (v0 (ix2 0 0)) (v2 i) := by
  rw [← pay4_apply]; rfl

/-- The dot record of the kernel's products is the plain 2048 x 512 by 512 x 512 one. -/
theorem dot_plain : dot_S2048x512_S512x512_S2048x512_1_0_0_1_n_n = DotDims.plain 2048 512 512 := rfl

/-- The three cross products of one weight, at an entry: the quantised row against the weight's column. -/
theorem pay7_apply (v0 : Vec Ideal S1x1 .f32) (v2 : Vec Ideal S2048x512 .f32) (v15 v17 : Vec Ideal S512x512 .bf16)
    (r : Fin 2048) (q : Fin 512) :
    k1_pay7 v0 v2 v15 v17 (ix2 r q)
      = (∑ k : Fin 512, Cert.QuantMatmul.quant (v0 (ix2 0 0)) (v2 (ix2 r k)) * v15 (ix2 k q)
          + ∑ k : Fin 512, Cert.QuantMatmul.quant (v0 (ix2 0 0)) (v2 (ix2 r k)) * v17 (ix2 k q))
        + ∑ k : Fin 512, (Cert.QuantMatmul.quant (v0 (ix2 0 0)) (v2 (ix2 r k)) - Cert.QuantMatmul.quant (v0 (ix2 0 0)) (v2 (ix2 r k))) * v15 (ix2 k q) := by
  unfold k1_pay7
  rw [shapeCast_self, shapeCast_self, addf_apply, addf_apply,
    Cert.Bridge.Split.matmul_zero_plain_apply _ dot_plain, Cert.Bridge.Split.matmul_zero_plain_apply _ dot_plain,
    Cert.Bridge.Split.matmul_zero_plain_apply _ dot_plain]
  simp only [pay5_apply, pay6_apply]

theorem pay8_apply (v0 : Vec Ideal S1x1 .f32) (v2 : Vec Ideal S2048x512 .f32) (v24 v26 : Vec Ideal S512x512 .bf16)
    (r : Fin 2048) (q : Fin 512) :
    k1_pay8 v0 v2 v24 v26 (ix2 r q)
      = (∑ k : Fin 512, Cert.QuantMatmul.quant (v0 (ix2 0 0)) (v2 (ix2 r k)) * v24 (ix2 k q)
          + ∑ k : Fin 512, Cert.QuantMatmul.quant (v0 (ix2 0 0)) (v2 (ix2 r k)) * v26 (ix2 k q))
        + ∑ k : Fin 512, (Cert.QuantMatmul.quant (v0 (ix2 0 0)) (v2 (ix2 r k)) - Cert.QuantMatmul.quant (v0 (ix2 0 0)) (v2 (ix2 r k))) * v24 (ix2 k q) := by
  unfold k1_pay8
  rw [shapeCast_self, shapeCast_self, addf_apply, addf_apply,
    Cert.Bridge.Split.matmul_zero_plain_apply _ dot_plain, Cert.Bridge.Split.matmul_zero_plain_apply _ dot_plain,
    Cert.Bridge.Split.matmul_zero_plain_apply _ dot_plain]
  simp only [pay5_apply, pay6_apply]

/-- The product of the two scales, at every entry. -/
theorem pay9_apply (v0 v33 : Vec Ideal S1x1 .f32) (i : S2048x512.Idx) :
    k1_pay9 v0 v33 i = v0 (ix2 0 0) * v33 (ix2 0 0) := by
  unfold k1_pay9 k1_pay3
  dsimp only
  rw [extract_one, extract_one]
  rfl

/-- The first output's buffer after the body, at an entry. -/
theorem out1_8_apply (x0 : Vec Ideal S2048x512 .f32) (x1 : Vec Ideal S1x1 .f32) (x2 x3 : Vec Ideal S512x512 .bf16)
    (x6 : Vec Ideal S1x1 .f32) (r : Fin 2048) (q : Fin 512) :
    out1_8 x0 x1 x2 x3 x6 (ix2 r q)
      = Cert.QuantMatmul.outSplit (x1 (ix2 0 0)) (fun k => x0 (ix2 r k)) x2 x3 (x6 (ix2 0 0)) q := by
  unfold out1_8
  rw [View.canon_unit_zero off_zero]
  simp only [View.ld_unit_zero (S := S2048x512) off_zero, View.ld_unit_zero (S := S1x1) off_zero,
    View.ld_unit_zero (S := S512x512) off_zero]
  unfold k1_pay1 Cert.QuantMatmul.outSplit
  dsimp only
  rw [mulf_apply, pay7_apply, pay9_apply]

/-- The second output's buffer after the body, at an entry. -/
theorem out1_9_apply (x0 : Vec Ideal S2048x512 .f32) (x1 : Vec Ideal S1x1 .f32) (x4 x5 : Vec Ideal S512x512 .bf16)
    (x7 : Vec Ideal S1x1 .f32) (r : Fin 2048) (q : Fin 512) :
    out1_9 x0 x1 x4 x5 x7 (ix2 r q)
      = Cert.QuantMatmul.outSplit (x1 (ix2 0 0)) (fun k => x0 (ix2 r k)) x4 x5 (x7 (ix2 0 0)) q := by
  unfold out1_9
  rw [View.canon_unit_zero off_zero]
  simp only [View.ld_unit_zero (S := S2048x512) off_zero, View.ld_unit_zero (S := S1x1) off_zero,
    View.ld_unit_zero (S := S512x512) off_zero]
  unfold k1_pay2 k1_pay3 Cert.QuantMatmul.outSplit
  dsimp only
  rw [mulf_apply, pay8_apply, extract_one, extract_one]
  rfl

/-! ## The blocks, read off the arrays -/

section Arrays

variable (V : (c : Dev nD) → (b : Ref sig .tc) → Buf (Elt Ideal) ((c : Thread nD τ).loc b))

/-- The index maps over the grid: point t's activation block and output blocks are block t of the rows; every
    other window's block is its whole array. -/
theorem idx_facts : ∀ t : Fin cfg1.N,
    (win1_0.index t (0 : Fin 2) = t.val ∧ win1_0.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Entry (r, k) of the activation block at point t is entry (2048 t + r, k) of the array. -/
theorem iblk1_0_apply (c : Dev nD) (t : Fin cfg1.N) (r : Fin 2048) (k : Fin 512) (R : Fin 65536)
    (hR : R.val = t.val * 2048 + r.val) :
    (iblk1 V c 0 t : Vec Ideal S2048x512 .f32) (ix2 r k) = (V c main_v0 : S65536x512.Idx → EReal) (ix2 R k) := by
  obtain ⟨⟨e0, e1⟩, -⟩ := idx_facts t
  unfold iblk1
  rw [View.read_apply]
  show V c main_v0 _ = V c main_v0 _
  congr 1
  funext a
  apply Fin.ext
  match a with
  | ⟨0, _⟩ => show win1_0.index t (0 : Fin 2) * 2048 + 1 * r.val = R.val; rw [e0, hR]; omega
  | ⟨1, _⟩ => show win1_0.index t (1 : Fin 2) * 512 + 1 * k.val = k.val; rw [e1]; omega

/-- Window 1's block at any point is its whole array. -/
theorem iblk1_1_eq (c : Dev nD) (t : Fin cfg1.N) :
    (iblk1 V c 1 t : Vec Ideal S1x1 .f32) = (V c main_v3 : S1x1.Idx → EReal) := by
  obtain ⟨_, _, _, ⟨e0, e1⟩, -⟩ := idx_facts t
  unfold iblk1
  funext j
  rw [View.read_apply]
  show V c main_v3 _ = V c main_v3 _
  congr 1
  funext a
  apply Fin.ext
  match a with
  | ⟨0, _⟩ => show win1_1.index t (0 : Fin 2) * 1 + 1 * (j 0).val = (j 0).val; rw [e0]; omega
  | ⟨1, _⟩ => show win1_1.index t (1 : Fin 2) * 1 + 1 * (j 1).val = (j 1).val; rw [e1]; omega

/-- Window 2's block at any point is its whole array. -/
theorem iblk1_2_eq (c : Dev nD) (t : Fin cfg1.N) :
    (iblk1 V c 2 t : Vec Ideal S512x512 .bf16) = (V c main_v10 : S512x512.Idx → EReal) := by
  obtain ⟨_, _, _, _, ⟨e0, e1⟩, -⟩ := idx_facts t
  unfold iblk1
  funext j
  rw [View.read_apply]
  show V c main_v10 _ = V c main_v10 _
  congr 1
  funext a
  apply Fin.ext
  match a with
  | ⟨0, _⟩ => show win1_2.index t (0 : Fin 2) * 512 + 1 * (j 0).val = (j 0).val; rw [e0]; omega
  | ⟨1, _⟩ => show win1_2.index t (1 : Fin 2) * 512 + 1 * (j 1).val = (j 1).val; rw [e1]; omega

/-- Window 3's block at any point is its whole array. -/
theorem iblk1_3_eq (c : Dev nD) (t : Fin cfg1.N) :
    (iblk1 V c 3 t : Vec Ideal S512x512 .bf16) = (V c main_v13 : S512x512.Idx → EReal) := by
  obtain ⟨_, _, _, _, _, ⟨e0, e1⟩, -⟩ := idx_facts t
  unfold iblk1
  funext j
  rw [View.read_apply]
  show V c main_v13 _ = V c main_v13 _
  congr 1
  funext a
  apply Fin.ext
  match a with
  | ⟨0, _⟩ => show win1_3.index t (0 : Fin 2) * 512 + 1 * (j 0).val = (j 0).val; rw [e0]; omega
  | ⟨1, _⟩ => show win1_3.index t (1 : Fin 2) * 512 + 1 * (j 1).val = (j 1).val; rw [e1]; omega

/-- Window 4's block at any point is its whole array. -/
theorem iblk1_4_eq (c : Dev nD) (t : Fin cfg1.N) :
    (iblk1 V c 4 t : Vec Ideal S512x512 .bf16) = (V c main_v20 : S512x512.Idx → EReal) := by
  obtain ⟨_, _, _, _, _, _, ⟨e0, e1⟩, -⟩ := idx_facts t
  unfold iblk1
  funext j
  rw [View.read_apply]
  show V c main_v20 _ = V c main_v20 _
  congr 1
  funext a
  apply Fin.ext
  match a with
  | ⟨0, _⟩ => show win1_4.index t (0 : Fin 2) * 512 + 1 * (j 0).val = (j 0).val; rw [e0]; omega
  | ⟨1, _⟩ => show win1_4.index t (1 : Fin 2) * 512 + 1 * (j 1).val = (j 1).val; rw [e1]; omega

/-- Window 5's block at any point is its whole array. -/
theorem iblk1_5_eq (c : Dev nD) (t : Fin cfg1.N) :
    (iblk1 V c 5 t : Vec Ideal S512x512 .bf16) = (V c main_v23 : S512x512.Idx → EReal) := by
  obtain ⟨_, _, _, _, _, _, _, ⟨e0, e1⟩, -⟩ := idx_facts t
  unfold iblk1
  funext j
  rw [View.read_apply]
  show V c main_v23 _ = V c main_v23 _
  congr 1
  funext a
  apply Fin.ext
  match a with
  | ⟨0, _⟩ => show win1_5.index t (0 : Fin 2) * 512 + 1 * (j 0).val = (j 0).val; rw [e0]; omega
  | ⟨1, _⟩ => show win1_5.index t (1 : Fin 2) * 512 + 1 * (j 1).val = (j 1).val; rw [e1]; omega

/-- Window 6's block at any point is its whole array. -/
theorem iblk1_6_eq (c : Dev nD) (t : Fin cfg1.N) :
    (iblk1 V c 6 t : Vec Ideal S1x1 .f32) = (V c main_v24 : S1x1.Idx → EReal) := by
  obtain ⟨_, _, _, _, _, _, _, _, ⟨e0, e1⟩, -⟩ := idx_facts t
  unfold iblk1
  funext j
  rw [View.read_apply]
  show V c main_v24 _ = V c main_v24 _
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 1 + 1 * (j 1).val = (j 1).val; rw [e1]; omega

/-- Window 7's block at any point is its whole array. -/
theorem iblk1_7_eq (c : Dev nD) (t : Fin cfg1.N) :
    (iblk1 V c 7 t : Vec Ideal S1x1 .f32) = (V c main_v25 : S1x1.Idx → EReal) := by
  obtain ⟨_, _, _, _, _, _, _, _, _, ⟨e0, e1⟩⟩ := idx_facts t
  unfold iblk1
  funext j
  rw [View.read_apply]
  show V c main_v25 _ = V c main_v25 _
  congr 1
  funext a
  apply Fin.ext
  match a with
  | ⟨0, _⟩ => show win1_7.index t (0 : Fin 2) * 1 + 1 * (j 0).val = (j 0).val; rw [e0]; omega
  | ⟨1, _⟩ => show win1_7.index t (1 : Fin 2) * 1 + 1 * (j 1).val = (j 1).val; rw [e1]; omega

/-! ## A point's write-back, and the arrays after the region -/

/-- The first output's buffer after the body at an entry, over the arrays: the block's row is the array's row,
    the other windows are their whole arrays. -/
theorem out_point8 (x0 : Vec Ideal S2048x512 .f32) (x1 : Vec Ideal S1x1 .f32) (x2 x3 : Vec Ideal S512x512 .bf16) (x6 : Vec Ideal S1x1 .f32)
    (X : S65536x512.Idx → EReal) (A1 : S1x1.Idx → EReal) (Wh Wl : S512x512.Idx → EReal) (A6 : S1x1.Idx → EReal)
    (r : Fin 2048) (q : Fin 512) (R : Fin 65536)
    (h0 : ∀ k : Fin 512, x0 (ix2 r k) = X (ix2 R k)) (h1 : x1 (ix2 0 0) = A1 (ix2 0 0)) (h2 : x2 = Wh) (h3 : x3 = Wl)
    (h6 : x6 (ix2 0 0) = A6 (ix2 0 0)) :
    out1_8 x0 x1 x2 x3 x6 (ix2 r q)
      = Cert.QuantMatmul.outSplit (A1 (ix2 0 0)) (fun k => X (ix2 R k)) Wh Wl (A6 (ix2 0 0)) q := by
  rw [out1_8_apply, h1, h2, h3, h6]
  simp only [h0]

/-- The second output's buffer after the body at an entry, over the arrays: the block's row is the array's row,
    the other windows are their whole arrays. -/
theorem out_point9 (x0 : Vec Ideal S2048x512 .f32) (x1 : Vec Ideal S1x1 .f32) (x2 x3 : Vec Ideal S512x512 .bf16) (x6 : Vec Ideal S1x1 .f32)
    (X : S65536x512.Idx → EReal) (A1 : S1x1.Idx → EReal) (Wh Wl : S512x512.Idx → EReal) (A6 : S1x1.Idx → EReal)
    (r : Fin 2048) (q : Fin 512) (R : Fin 65536)
    (h0 : ∀ k : Fin 512, x0 (ix2 r k) = X (ix2 R k)) (h1 : x1 (ix2 0 0) = A1 (ix2 0 0)) (h2 : x2 = Wh) (h3 : x3 = Wl)
    (h6 : x6 (ix2 0 0) = A6 (ix2 0 0)) :
    out1_9 x0 x1 x2 x3 x6 (ix2 r q)
      = Cert.QuantMatmul.outSplit (A1 (ix2 0 0)) (fun k => X (ix2 R k)) Wh Wl (A6 (ix2 0 0)) q := by
  rw [out1_9_apply, h1, h2, h3, h6]
  simp only [h0]

/-- The first output array after the region, as a function of the arrays the region finds. -/
def G8 (c : Dev nD) : S65536x512.Idx → EReal := fun i =>
  Cert.QuantMatmul.outSplit ((V c main_v3 : S1x1.Idx → EReal) (ix2 0 0))
    (fun k => (V c main_v0 : S65536x512.Idx → EReal) (ix2 (i 0) k))
    (V c main_v10) (V c main_v13) ((V c main_v24 : S1x1.Idx → EReal) (ix2 0 0)) (i 1)

theorem G8_apply (c : Dev nD) (R : Fin 65536) (q : Fin 512) :
    G8 V c (ix2 R q) = Cert.QuantMatmul.outSplit ((V c main_v3 : S1x1.Idx → EReal) (ix2 0 0))
      (fun k => (V c main_v0 : S65536x512.Idx → EReal) (ix2 R k))
      (V c main_v10) (V c main_v13) ((V c main_v24 : S1x1.Idx → EReal) (ix2 0 0)) q := rfl

/-- What point t writes back to the first output is block t of that function. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  obtain ⟨-, ⟨e0, e1⟩, -⟩ := idx_facts t
  funext j
  have hj0 : (j 0).val < 2048 := (j 0).isLt
  have hj1 : (j 1).val < 512 := (j 1).isLt
  have hN : t.val < 32 := lt_of_lt_of_eq t.isLt N_1
  have hR : t.val * 2048 + (j 0).val < 65536 := by omega
  have hy : (cfg1.win 8).xinj (grid1.coords t) j = ix2 (⟨(j 0).val, hj0⟩ : Fin 2048) (⟨(j 1).val, hj1⟩ : Fin 512) := by
    funext a
    match a with
    | ⟨0, _⟩ => rfl
    | ⟨1, _⟩ => rfl
  have hi : ((cfg1.win 8).blk t).view.emb j = ix2 (⟨t.val * 2048 + (j 0).val, hR⟩ : Fin 65536) (⟨(j 1).val, hj1⟩ : Fin 512) := by
    funext a
    apply Fin.ext
    match a with
    | ⟨0, _⟩ => show win1_8.index t (0 : Fin 2) * 2048 + 1 * (j 0).val = t.val * 2048 + (j 0).val; rw [e0]; omega
    | ⟨1, _⟩ => show win1_8.index t (1 : Fin 2) * 512 + 1 * (j 1).val = (j 1).val; rw [e1]; omega
  show out1_8 (iblk1 V c 0 t) (iblk1 V c 1 t) (iblk1 V c 2 t) (iblk1 V c 3 t) (iblk1 V c 6 t) ((cfg1.win 8).xinj (grid1.coords t) j)
    = G8 V c (((cfg1.win 8).blk t).view.emb j)
  rw [hy, hi, G8_apply]
  refine out_point8 (iblk1 V c 0 t) (iblk1 V c 1 t) (iblk1 V c 2 t) (iblk1 V c 3 t) (iblk1 V c 6 t)
    (V c main_v0) (V c main_v3) (V c main_v10) (V c main_v13) (V c main_v24)
    ⟨(j 0).val, hj0⟩ ⟨(j 1).val, hj1⟩ ⟨t.val * 2048 + (j 0).val, hR⟩ ?_ ?_ ?_ ?_ ?_
  · intro k; exact iblk1_0_apply V c t _ k _ rfl
  · rw [iblk1_1_eq]
  · exact iblk1_2_eq V c t
  · exact iblk1_3_eq V c t
  · rw [iblk1_6_eq]

/-- An index of the array is in point t's block iff each coordinate is in the block's range on its axis. -/
theorem mem_blk8 (t : Fin cfg1.N) (i : S65536x512.Idx) :
    i ∈ ((cfg1.win 8).blk t).view.set ↔ ∀ a : Fin 2, win1_8.index t a * S2048x512.size a ≤ (i a).val ∧ (i a).val < win1_8.index t a * S2048x512.size a + S2048x512.size a := by
  show i ∈ ((View.whole main_v26_0).slice (win1_8.rect t)).set ↔ _
  rw [View.set_slice_whole, Rect.mem_set_unit]
  exact Iff.rfl

/-- Row r lies in the block of point r / 2048: the blocks cover the array. -/
theorem cover8 (i : S65536x512.Idx) :
    ∃ t : Fin cfg1.N, (cfg1.win 8).flush t = true ∧ i ∈ ((cfg1.win 8).blk t).view.set := by
  have hi0 : (i 0).val < 65536 := (i 0).isLt
  have hi1 : (i 1).val < 512 := (i 1).isLt
  have ht : (i 0).val / 2048 < cfg1.N := lt_of_lt_of_eq (by omega : (i 0).val / 2048 < 32) N_1.symm
  refine ⟨⟨(i 0).val / 2048, ht⟩, flush1_8 _, ?_⟩
  rw [mem_blk8]
  obtain ⟨-, ⟨e0, e1⟩, -⟩ := idx_facts ⟨(i 0).val / 2048, ht⟩
  intro a
  match a with
  | ⟨0, _⟩ =>
    show win1_8.index ⟨(i 0).val / 2048, ht⟩ (0 : Fin 2) * 2048 ≤ (i 0).val ∧ (i 0).val < win1_8.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win1_8.index ⟨(i 0).val / 2048, ht⟩ (1 : Fin 2) * 512 ≤ (i 1).val ∧ (i 1).val < win1_8.index ⟨(i 0).val / 2048, ht⟩ (1 : Fin 2) * 512 + 512
    rw [e1]
    omega

/-- The first output array after the region. -/
theorem final8 (c : Dev nD) : ((dat1 (F := Ideal) V c).arrAt 8 cfg1.N : S65536x512.Idx → EReal)
    = fun i => Cert.QuantMatmul.outSplit ((V c main_v3 : S1x1.Idx → EReal) (ix2 0 0))
        (fun k => (V c main_v0 : S65536x512.Idx → EReal) (ix2 (i 0) k))
        (V c main_v10) (V c main_v13) ((V c main_v24 : S1x1.Idx → EReal) (ix2 0 0)) (i 1) :=
  (dat1 V c).arrAt_eq_of_cover 8 (G8 V c) (fun t _ => flushed8_eq V c t) (cover8)

/-- The second output array after the region, as a function of the arrays the region finds. -/
def G9 (c : Dev nD) : S65536x512.Idx → EReal := fun i =>
  Cert.QuantMatmul.outSplit ((V c main_v3 : S1x1.Idx → EReal) (ix2 0 0))
    (fun k => (V c main_v0 : S65536x512.Idx → EReal) (ix2 (i 0) k))
    (V c main_v20) (V c main_v23) ((V c main_v25 : S1x1.Idx → EReal) (ix2 0 0)) (i 1)

theorem G9_apply (c : Dev nD) (R : Fin 65536) (q : Fin 512) :
    G9 V c (ix2 R q) = Cert.QuantMatmul.outSplit ((V c main_v3 : S1x1.Idx → EReal) (ix2 0 0))
      (fun k => (V c main_v0 : S65536x512.Idx → EReal) (ix2 R k))
      (V c main_v20) (V c main_v23) ((V c main_v25 : S1x1.Idx → EReal) (ix2 0 0)) q := rfl

/-- What point t writes back to the second output is block t of that function. -/
theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  obtain ⟨-, -, ⟨e0, e1⟩, -⟩ := idx_facts t
  funext j
  have hj0 : (j 0).val < 2048 := (j 0).isLt
  have hj1 : (j 1).val < 512 := (j 1).isLt
  have hN : t.val < 32 := lt_of_lt_of_eq t.isLt N_1
  have hR : t.val * 2048 + (j 0).val < 65536 := by omega
  have hy : (cfg1.win 9).xinj (grid1.coords t) j = ix2 (⟨(j 0).val, hj0⟩ : Fin 2048) (⟨(j 1).val, hj1⟩ : Fin 512) := by
    funext a
    match a with
    | ⟨0, _⟩ => rfl
    | ⟨1, _⟩ => rfl
  have hi : ((cfg1.win 9).blk t).view.emb j = ix2 (⟨t.val * 2048 + (j 0).val, hR⟩ : Fin 65536) (⟨(j 1).val, hj1⟩ : Fin 512) := by
    funext a
    apply Fin.ext
    match a with
    | ⟨0, _⟩ => show win1_9.index t (0 : Fin 2) * 2048 + 1 * (j 0).val = t.val * 2048 + (j 0).val; rw [e0]; omega
    | ⟨1, _⟩ => show win1_9.index t (1 : Fin 2) * 512 + 1 * (j 1).val = (j 1).val; rw [e1]; omega
  show out1_9 (iblk1 V c 0 t) (iblk1 V c 1 t) (iblk1 V c 4 t) (iblk1 V c 5 t) (iblk1 V c 7 t) ((cfg1.win 9).xinj (grid1.coords t) j)
    = G9 V c (((cfg1.win 9).blk t).view.emb j)
  rw [hy, hi, G9_apply]
  refine out_point9 (iblk1 V c 0 t) (iblk1 V c 1 t) (iblk1 V c 4 t) (iblk1 V c 5 t) (iblk1 V c 7 t)
    (V c main_v0) (V c main_v3) (V c main_v20) (V c main_v23) (V c main_v25)
    ⟨(j 0).val, hj0⟩ ⟨(j 1).val, hj1⟩ ⟨t.val * 2048 + (j 0).val, hR⟩ ?_ ?_ ?_ ?_ ?_
  · intro k; exact iblk1_0_apply V c t _ k _ rfl
  · rw [iblk1_1_eq]
  · exact iblk1_4_eq V c t
  · exact iblk1_5_eq V c t
  · rw [iblk1_7_eq]

/-- An index of the array is in point t's block iff each coordinate is in the block's range on its axis. -/
theorem mem_blk9 (t : Fin cfg1.N) (i : S65536x512.Idx) :
    i ∈ ((cfg1.win 9).blk t).view.set ↔ ∀ a : Fin 2, win1_9.index t a * S2048x512.size a ≤ (i a).val ∧ (i a).val < win1_9.index t a * S2048x512.size a + S2048x512.size a := by
  show i ∈ ((View.whole main_v26_1).slice (win1_9.rect t)).set ↔ _
  rw [View.set_slice_whole, Rect.mem_set_unit]
  exact Iff.rfl

/-- Row r lies in the block of point r / 2048: the blocks cover the array. -/
theorem cover9 (i : S65536x512.Idx) :
    ∃ t : Fin cfg1.N, (cfg1.win 9).flush t = true ∧ i ∈ ((cfg1.win 9).blk t).view.set := by
  have hi0 : (i 0).val < 65536 := (i 0).isLt
  have hi1 : (i 1).val < 512 := (i 1).isLt
  have ht : (i 0).val / 2048 < cfg1.N := lt_of_lt_of_eq (by omega : (i 0).val / 2048 < 32) N_1.symm
  refine ⟨⟨(i 0).val / 2048, ht⟩, flush1_9 _, ?_⟩
  rw [mem_blk9]
  obtain ⟨-, -, ⟨e0, e1⟩, -⟩ := idx_facts ⟨(i 0).val / 2048, ht⟩
  intro a
  match a with
  | ⟨0, _⟩ =>
    show win1_9.index ⟨(i 0).val / 2048, ht⟩ (0 : Fin 2) * 2048 ≤ (i 0).val ∧ (i 0).val < win1_9.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win1_9.index ⟨(i 0).val / 2048, ht⟩ (1 : Fin 2) * 512 ≤ (i 1).val ∧ (i 1).val < win1_9.index ⟨(i 0).val / 2048, ht⟩ (1 : Fin 2) * 512 + 512
    rw [e1]
    omega

/-- The second output array after the region. -/
theorem final9 (c : Dev nD) : ((dat1 (F := Ideal) V c).arrAt 9 cfg1.N : S65536x512.Idx → EReal)
    = fun i => Cert.QuantMatmul.outSplit ((V c main_v3 : S1x1.Idx → EReal) (ix2 0 0))
        (fun k => (V c main_v0 : S65536x512.Idx → EReal) (ix2 (i 0) k))
        (V c main_v20) (V c main_v23) ((V c main_v25 : S1x1.Idx → EReal) (ix2 0 0)) (i 1) :=
  (dat1 V c).arrAt_eq_of_cover 9 (G9 V c) (fun t _ => flushed9_eq V c t) (cover9)

end Arrays

end Cert.KernelIdeal.Hand

end
-- ==== Proof.AbsmaxValue.lean ====
/-
  What the first call leaves in its 1 x 1 output array, over the extended reals: the largest absolute value of the
  65536 x 512 array. The kernel keeps a running maximum in a 1 x 1 accumulator: zero before the first of the 32 row
  blocks, then at every block the larger of the accumulator and the block's largest absolute value; the last block's
  point copies it out. Absolute values are nonnegative and the blocks cover the array, so the running maximum from zero
  ends at the supremum over every entry.
-/
import proofs.«134259_j19490561590113_1_alg».proof.Proof.AbsmaxBody
import proofs.«134259_j19490561590113_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.QuantMatmul (absE amax)

variable {F : FTy → Type} [FloatOps F]

theorem hz2 : (![0, 0] : Fin 2 → Nat) = fun _ => 0 := funext fun a => by fin_cases a <;> rfl

/-- A middle point raises the accumulator `xs` to the largest absolute value of the block `x`. -/
theorem sout_B (c : Dev nD) (i : grid0.Coords) (a1 : Memref sig .tc .vmem S2048x512 .f32) (h1 : a1.IsWhole) (a2 : Memref sig .tc .vmem S1x1 .f32) (h2 : a2.IsWhole) (a3 : Memref sig .tc .vmem S1x1 .f32) (h3 : a3.IsWhole) (hc0 : ¬cond0_0 i) (hc1 : ¬cond0_1 i) (x : Vec F S2048x512 .f32) (xs : Vec F S1x1 .f32) :
    sout0_B c i a1 h1 a2 h2 a3 h3 hc0 hc1 x xs = k0_pay2 x xs := by
  unfold sout0_B
  rw [View.read_writes_eq_canon _ _ _ (scover0_B c i a1 h1 a2 h2 a3 h3 hc0 hc1 x xs)]
  unfold kernelRun0_B
  dsimp only
  rw [View.canon_unit_zero hz2]
  simp only [View.readAt_eq_ld, h1.read_unread, h3.read_unread, View.ld_unit_zero (S := S2048x512) hz2, View.ld_unit_zero (S := S1x1) hz2]

theorem sout_A (c : Dev nD) (i : grid0.Coords) (a1 : Memref sig .tc .vmem S2048x512 .f32) (h1 : a1.IsWhole) (a2 : Memref sig .tc .vmem S1x1 .f32) (h2 : a2.IsWhole) (a3 : Memref sig .tc .vmem S1x1 .f32) (h3 : a3.IsWhole) (hc0 : cond0_0 i) (hc1 : ¬cond0_1 i) (x : Vec F S2048x512 .f32) :
    sout0_A c i a1 h1 a2 h2 a3 h3 hc0 hc1 x = k0_pay2 x k0_pay1 := by
  unfold sout0_A
  rw [View.read_writes_eq_canon _ _ _ (scover0_A c i a1 h1 a2 h2 a3 h3 hc0 hc1 x)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S2048x512) hz2, View.ld_unit_zero (S := S1x1) hz2]

theorem sout_C (c : Dev nD) (i : grid0.Coords) (a1 : Memref sig .tc .vmem S2048x512 .f32) (h1 : a1.IsWhole) (a2 : Memref sig .tc .vmem S1x1 .f32) (h2 : a2.IsWhole) (a3 : Memref sig .tc .vmem S1x1 .f32) (h3 : a3.IsWhole) (hc0 : ¬cond0_0 i) (hc1 : cond0_1 i) (x : Vec F S2048x512 .f32) (xs : Vec F S1x1 .f32) :
    sout0_C c i a1 h1 a2 h2 a3 h3 hc0 hc1 x xs = k0_pay2 x xs := by
  unfold sout0_C
  rw [View.read_writes_eq_canon _ _ _ (scover0_C c i a1 h1 a2 h2 a3 h3 hc0 hc1 x xs)]
  unfold kernelRun0_C
  dsimp only
  sl_unfold_words
  rw [View.canon_unit_zero hz2]
  simp only [View.readAt_eq_ld, h1.read_unread, h3.read_unread, View.ld_unit_zero (S := S2048x512) hz2, View.ld_unit_zero (S := S1x1) hz2]

theorem out_C (c : Dev nD) (i : grid0.Coords) (a1 : Memref sig .tc .vmem S2048x512 .f32) (h1 : a1.IsWhole) (a2 : Memref sig .tc .vmem S1x1 .f32) (h2 : a2.IsWhole) (a3 : Memref sig .tc .vmem S1x1 .f32) (h3 : a3.IsWhole) (hc0 : ¬cond0_0 i) (hc1 : cond0_1 i) (x : Vec F S2048x512 .f32) (xs : Vec F S1x1 .f32) :
    out0_C c i a1 h1 a2 h2 a3 h3 hc0 hc1 x xs = k0_pay2 x xs := by
  unfold out0_C
  rw [View.read_writes_eq_canon _ _ _ (cover0_C c i a1 h1 a2 h2 a3 h3 hc0 hc1 x xs)]
  unfold kernelRun0_C
  dsimp only
  sl_unfold_words
  rw [View.canon_unit_zero hz2, View.readCov_unit_zero (S := S1x1) _ hz2]
  simp only [View.readAt_eq_ld, h1.read_unread, h3.read_unread, View.ld_unit_zero (S := S2048x512) hz2, View.ld_unit_zero (S := S1x1) hz2]

/-! ## The payloads at the extended reals -/

instance : Subsingleton S1.Idx := ⟨fun a b => funext fun d => by
  match d with
  | ⟨0, _⟩ => exact Subsingleton.elim (α := Fin 1) _ _⟩

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- A fold of `max` from `b` over a finite set is `b` against the supremum over the set. -/
theorem fold_max_eq {ι : Type} (s : Finset ι) (b : EReal) (f : ι → EReal) :
    s.fold max b f = max b (⨆ i ∈ s, f i) := by
  classical
  induction s using Finset.induction_on with
  | empty => simp
  | insert a s ha ih =>
    rw [Finset.fold_insert ha, ih, Finset.iSup_insert]
    exact max_left_comm _ _ _

/-- The largest absolute value of a 2048 x 512 block: the block laid out as 1 x 2048 x 512 and reduced by
    `max` from minus infinity over its last two axes is the supremum of the absolute values. -/
theorem blockmax_apply (x : Vec Ideal S2048x512 .f32) (hφ : FKind.Formats .f32) (hacc : (0xFF800000#32 : BitVec 32) = FKind.maximumf.neutral .f32 hφ) (j : S1.Idx) :
    multiReduction (F := Ideal) .maximumf [1, 2] S1 (shapeCast S1x2048x512 (absf (shapeCast S2048x512 x shapeCasts_S2048x512_S2048x512)) shapeCasts_S2048x512_S1x2048x512) 0xFF800000#32 reduces_S1x2048x512_S1 hφ hacc j
      = ⨆ i : S2048x512.Idx, absE (x i) := by
  refine (multiReduction_maximumf_eq_fold _ _ _ hφ hacc j).trans ?_
  rw [Finset.filter_true_of_mem (fun i _ => Subsingleton.elim _ _)]
  refine (fold_max_eq _ _ _).trans ?_
  rw [show (FloatOps.ofBits (F := Ideal) .f32 0xFF800000#32 : EReal) = ⊥ from ofBits_neg_inf, max_eq_right bot_le]
  simp only [Finset.mem_univ, iSup_pos]
  rw [shapeCast_self]
  unfold shapeCast
  exact Equiv.iSup_comp (g := fun k => absE (x k)) _

/-- The reset value is zero. -/
theorem pay1_apply (j : S1x1.Idx) : k0_pay1 (F := Ideal) j = 0 := by
  unfold k0_pay1
  refine (congrFun (shapeCast_self _ _) j).trans ?_
  exact ofBits_zero

/-- The one entry of a one-entry vector, read through its 1 x 1 x 1 layout. -/
theorem extract_cast {α : Type} (v : S1.Idx → α) (h : S1.ShapeCasts S1x1x1) (h' : ∀ a, (![0, 0, 0] : Fin 3 → Nat) a < S1x1x1.size a) :
    extractAt ![0, 0, 0] (shapeCast S1x1x1 v h) h' = v (ix1 0) := by
  unfold extractAt shapeCast
  exact congrArg v (Subsingleton.elim _ _)

/-- One point's update: the accumulator against the block's largest absolute value. -/
theorem pay2_apply (x : Vec Ideal S2048x512 .f32) (s : Vec Ideal S1x1 .f32) (j : S1x1.Idx) :
    k0_pay2 (F := Ideal) x s j = max (s j) (⨆ i : S2048x512.Idx, absE (x i)) := by
  unfold k0_pay2
  refine (congrFun (shapeCast_self _ _) j).trans ?_
  refine (maximumf_apply _ _ j).trans ?_
  refine congrArg (max (s j)) ?_
  refine (broadcast_apply _ j).trans ?_
  refine (extract_cast _ _ _).trans ?_
  exact blockmax_apply x _ _ _

/-! ## The running maximum over the grid, and the array the region leaves -/

section
variable (V : (c : Dev nD) → (b : Ref sig .tc) → Buf (Elt Ideal) ((c : Thread nD τ).loc b))

/-- Block `t` of the input window is rows `2048 t … 2048 t + 2047` of the 65536 x 512 array. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_apply (c : Dev nD) (t : Fin cfg0.N) (y : S2048x512.Idx) (k : S65536x512.Idx)
    (hk0 : (k 0).val = 2048 * t.val + (y 0).val) (hk1 : (k 1).val = (y 1).val) :
    (iblk0 V c 0 t : Vec Ideal S2048x512 .f32) y = (V c main_v0 : S65536x512.Idx → EReal) k := by
  have hi := idx_facts0 t
  unfold iblk0
  rw [View.read_apply]
  show V c main_v0 _ = V c main_v0 _
  congr 1
  funext a
  apply Fin.ext
  match a with
  | ⟨0, _⟩ => show win0_0.index t 0 * 2048 + 1 * (y 0).val = (k 0).val; rw [hi.1, hk0]; omega
  | ⟨1, _⟩ => show win0_0.index t 1 * 512 + 1 * (y 1).val = (k 1).val; rw [hi.2, hk1]; omega

/-- The largest absolute value of block `t`. -/
def blockSup (c : Dev nD) (t : Fin cfg0.N) : EReal :=
  ⨆ y : S2048x512.Idx, absE ((iblk0 V c 0 t : Vec Ideal S2048x512 .f32) y)

/-- The accumulator's entry after the first point, and after each later one. -/
theorem acc_zero (c : Dev nD) (hn : 0 < cfg0.N) (j : S1x1.Idx) :
    (outsAt0 V c 0 hn).2 j = max 0 (blockSup V c ⟨0, hn⟩) := by
  have e := outsAt0_A V c ⟨0, hn⟩ rfl (c0_zero hn) (nc1_zero hn)
  refine (congrArg (fun p => p.2 j) e).trans ?_
  dsimp only
  rw [sout_A, pay2_apply, pay1_apply]
  rfl

theorem acc_succ (c : Dev nD) (n : ℕ) (hn : n + 1 < cfg0.N) (j : S1x1.Idx) :
    (outsAt0 V c (n + 1) hn).2 j = max ((outsAt0 V c n (Nat.lt_of_succ_lt hn)).2 j) (blockSup V c ⟨n + 1, hn⟩) := by
  by_cases h1 : (n + 1) % 32 = 31
  · have e := outsAt0_C V c ⟨n + 1, hn⟩ (Nat.succ_ne_zero n) h1 (nc0_succ n hn) ((hcond0_1 ⟨n + 1, hn⟩).mpr h1)
    refine (congrArg (fun p => p.2 j) e).trans ?_
    dsimp only
    rw [sout_C, pay2_apply]
    rfl
  · have e := outsAt0_B V c ⟨n + 1, hn⟩ (Nat.succ_ne_zero n) h1 (nc0_succ n hn) (fun h => h1 ((hcond0_1 ⟨n + 1, hn⟩).mp h))
    refine (congrArg (fun p => p.2 j) e).trans ?_
    dsimp only
    rw [sout_B, pay2_apply]
    rfl

theorem absE_nonneg (x : EReal) : 0 ≤ absE x := by
  unfold Cert.QuantMatmul.absE
  rcases le_total 0 x with h | h
  · exact le_max_of_le_left h
  · exact le_max_of_le_right (by simpa using EReal.neg_le_neg_iff.mpr h)

/-- Every block's largest absolute value is below the whole array's. -/
theorem blockSup_le (c : Dev nD) (t : Fin cfg0.N) : blockSup V c t ≤ amax (V c main_v0 : S65536x512.Idx → EReal) := by
  have hN : t.val < 32 := lt_of_lt_of_eq t.isLt (show cfg0.N = 32 from N_0)
  refine iSup_le fun y => ?_
  have h0 : (y 0).val < 2048 := (y 0).isLt
  have h1 : (y 1).val < 512 := (y 1).isLt
  rw [iblk0_apply V c t y (ix2 ⟨2048 * t.val + (y 0).val, by omega⟩ ⟨(y 1).val, h1⟩) rfl rfl]
  exact le_iSup (fun i => absE ((V c main_v0 : S65536x512.Idx → EReal) i)) _

/-- The accumulator never exceeds the whole array's largest absolute value, -/
theorem acc_le (c : Dev nD) (j : S1x1.Idx) : ∀ (n : ℕ) (hn : n < cfg0.N), (outsAt0 V c n hn).2 j ≤ amax (V c main_v0 : S65536x512.Idx → EReal)
  | 0, hn => by
    rw [acc_zero]
    refine max_le ?_ (blockSup_le V c _)
    exact le_trans (absE_nonneg _) (le_iSup (fun i => absE ((V c main_v0 : S65536x512.Idx → EReal) i)) (ix2 ⟨0, by decide⟩ ⟨0, by decide⟩))
  | n + 1, hn => by
    rw [acc_succ]
    exact max_le (acc_le c j n _) (blockSup_le V c _)

/-- and after point `n` it is at least every block's up to `n`. -/
theorem le_acc (c : Dev nD) (j : S1x1.Idx) (t : Fin cfg0.N) : ∀ (n : ℕ) (hn : n < cfg0.N), t.val ≤ n → blockSup V c t ≤ (outsAt0 V c n hn).2 j
  | 0, hn, ht => by
    rw [acc_zero]
    have : t = ⟨0, hn⟩ := Fin.ext (Nat.le_zero.mp ht)
    subst this
    exact le_max_right _ _
  | n + 1, hn, ht => by
    rw [acc_succ]
    rcases Nat.lt_or_ge t.val (n + 1) with h | h
    · exact le_trans (le_acc c j t n _ (Nat.lt_succ_iff.mp h)) (le_max_left _ _)
    · have : t = ⟨n + 1, hn⟩ := Fin.ext (le_antisymm ht h)
      subst this
      exact le_max_right _ _

/-- The last point of the grid. -/
abbrev tLast : Fin cfg0.N := ⟨31, by rw [show cfg0.N = 32 from N_0]; decide⟩

/-- After the last point the accumulator holds the largest absolute value of the whole array. -/
theorem acc_last (c : Dev nD) (j : S1x1.Idx) :
    (outsAt0 V c tLast.val tLast.isLt).2 j = amax (V c main_v0 : S65536x512.Idx → EReal) := by
  refine le_antisymm (acc_le V c j _ _) (iSup_le fun i => ?_)
  have h0 : (i 0).val < 65536 := (i 0).isLt
  have h1 : (i 1).val < 512 := (i 1).isLt
  have hN : cfg0.N = 32 := N_0
  let t : Fin cfg0.N := ⟨(i 0).val / 2048, by omega⟩
  refine le_trans ?_ (le_acc V c j t 31 tLast.isLt (by show (i 0).val / 2048 ≤ 31; omega))
  refine le_trans (le_of_eq ?_) (le_iSup _ (ix2 ⟨(i 0).val % 2048, Nat.mod_lt _ (by decide)⟩ ⟨(i 1).val, h1⟩))
  exact congrArg absE (iblk0_apply V c t _ i (by show (i 0).val = 2048 * ((i 0).val / 2048) + (i 0).val % 2048; omega) rfl).symm

/-- What the region leaves in its 1 x 1 output array. -/
abbrev amaxArr (c : Dev nD) : Buf (Elt Ideal) ((c : Thread nD τ).loc main_v1) :=
  fun _ => amax (V c main_v0 : S65536x512.Idx → EReal)

/-- The one write-back, at the last point, writes the whole array's largest absolute value. -/
theorem flushed1_eq (c : Dev nD) (t : Fin cfg0.N) (hf : (cfg0.win 1).flush t = true) :
    (dat0 V c).flushed 1 t = ((cfg0.win 1).blk t).view.read (Elt Ideal) (amaxArr V c) := by
  have hN : cfg0.N = 32 := N_0
  have h1 : t.val % 32 = 31 := (flush0_1 t).mp hf
  have ht : t = tLast := Fin.ext (by have := t.isLt; show t.val = 31; omega)
  subst ht
  show (cfg0.win 1).cut (grid0.coords tLast) ((dat0 V c).after 1 tLast) = _
  rw [after0_1]
  have hc1 : cond0_1 (grid0.coords tLast) := (hcond0_1 tLast).mpr rfl
  have hc0 : ¬cond0_0 (grid0.coords tLast) := fun h => absurd ((hcond0_0 tLast).mp h) (by decide)
  have e1 : (outsAt0 V c tLast.val tLast.isLt).1 = (outsAt0 V c tLast.val tLast.isLt).2 := by
    rw [outsAt0_C V c tLast (by decide) rfl hc0 hc1]; dsimp only; rw [out_C, sout_C]
  have e : (outsAt0 V c tLast.val tLast.isLt).1 = fun _ => amax (V c main_v0 : S65536x512.Idx → EReal) := by
    rw [e1]; funext j; exact acc_last V c j
  rw [e]
  funext y
  rfl

/-- So the 1 x 1 array ends holding the largest absolute value of the 65536 x 512 array. -/
theorem final1 (c : Dev nD) : ((dat0 (F := Ideal) V c).arrAt 1 cfg0.N : S1x1.Idx → EReal) = fun _ => amax (V c main_v0 : S65536x512.Idx → EReal) :=
  (dat0 V c).arrAt_eq_of_cover 1 (amaxArr V c) (flushed1_eq V c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

end

end Cert.KernelIdeal.Hand
end
-- ==== Proof.HostGlue.lean ====
/-
  The kernel program's host operations, read off the run's fold at the extended reals.

  Between the launch and the first region the activations are reshaped to 65536 rows.  Between the two
  regions the host divides the first region's one entry by 32767 (the activations' step), and for each weight
  matrix takes the largest absolute value over 32767 (its step), divides the matrix by it, rounds, and
  splits the rounded matrix into the value narrowed and the value less its widened narrowing; at the extended
  reals narrowing and widening are the identity, so the parts are  wq  and  wq - wq.  After the second region
  its two outputs are reshaped back to  16 x 4096 x 512.  Each stretch is read as its operations' term over
  the contents it starts from; a buffer a stretch does not write keeps its contents.
-/
import proofs.«134259_j19490561590113_1_alg».proof.Proof.Launches
import proofs.«134259_j19490561590113_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand.Glue

open Cert.KernelIdeal Cert.KernelIdeal.Gen Cert.KernelIdeal.Hand Cert.QuantMatmul
open Idealize.ShloMosaic Idealize.ShloMosaic.TcCoe Idealize.ShloMosaic.ValueIdx Idealize.ShloMosaic.StableHlo
open Idealize.SL.Sem
open scoped BigOperators

/-! ## What each host stretch writes, as its operations' term over the contents it starts from -/

section Stretches

variable (V : Valuation τ sig (Elt Ideal))

/-- The step of a weight matrix as the host computes it: the largest absolute value over 32767. -/
abbrev hstep (w : S512x512.Idx → EReal) : S_.Idx → EReal :=
  Host.divf (F := Ideal) (φ := .f32)
    (Host.reduce (FloatOps.maximumf (F := Ideal) (φ := .f32)) (Host.absf (F := Ideal) (φ := .f32) w)
      (constant (F := Ideal) S_ .f32 0xFF800000#32) reducesTo_S512x512_S_d0_1 h_S_)
    (constant (F := Ideal) S_ .f32 0x46FFFE00#32)

/-- A weight matrix divided by its step, as the host computes it. -/
abbrev hdiv (w : S512x512.Idx → EReal) : S512x512.Idx → EReal :=
  Host.divf (F := Ideal) (φ := .f32) w (broadcastInDim S512x512 ![] bcast_S_S512x512 (hstep w))

/-- A rounded weight's two parts as the host computes them: the value itself, and the value less itself. -/
abbrev hhi (v : S512x512.Idx → EReal) : S512x512.Idx → EReal :=
  truncf (F := Ideal) (φ := .f32) .bf16 v bitsLt_bf16_f32
abbrev hlo (v : S512x512.Idx → EReal) : S512x512.Idx → EReal :=
  truncf (F := Ideal) (φ := .f32) .bf16
    (subf (F := Ideal) (φ := .f32) v (extf (F := Ideal) (φ := .bf16) .f32 (truncf (F := Ideal) (φ := .f32) .bf16 v bitsLt_bf16_f32) bitsLt_bf16_f32))
    bitsLt_bf16_f32

theorem ops1_v3 : (after hostOps1 V (Proc.devRef .tc main_v3) : S1x1.Idx → EReal)
    = Host.divf (F := Ideal) (φ := .f32) (V (Proc.devRef .tc main_v1))
        (broadcastInDim S1x1 ![] bcast_S_S1x1 (constant (F := Ideal) S_ .f32 0x46FFFE00#32)) := by
  after_results <;> rfl
theorem ops1_v6 : (after hostOps1 V (Proc.devRef .tc main_v6) : S_.Idx → EReal)
    = hstep (V (Proc.devRef .tc main_arg1)) := by
  after_results <;> rfl
theorem ops1_v8 : (after hostOps1 V (Proc.devRef .tc main_v8) : S512x512.Idx → EReal)
    = hdiv (V (Proc.devRef .tc main_arg1)) := by
  after_results <;> rfl
theorem ops11_v9 : (after hostOps1_1 V (Proc.devRef .tc main_v9) : S512x512.Idx → EReal)
    = Host.roundeven (F := Ideal) (φ := .f32) (V (Proc.devRef .tc main_v8)) := by
  after_results <;> rfl
theorem ops12_v10 : (after hostOps1_2 V (Proc.devRef .tc main_v10) : S512x512.Idx → EReal)
    = hhi (V (Proc.devRef .tc main_v9)) := by
  after_results <;> rfl
theorem ops12_v13 : (after hostOps1_2 V (Proc.devRef .tc main_v13) : S512x512.Idx → EReal)
    = hlo (V (Proc.devRef .tc main_v9)) := by
  after_results <;> rfl
theorem ops12_v16 : (after hostOps1_2 V (Proc.devRef .tc main_v16) : S_.Idx → EReal)
    = hstep (V (Proc.devRef .tc main_arg2)) := by
  after_results <;> rfl
theorem ops12_v18 : (after hostOps1_2 V (Proc.devRef .tc main_v18) : S512x512.Idx → EReal)
    = hdiv (V (Proc.devRef .tc main_arg2)) := by
  after_results <;> rfl
theorem ops13_v19 : (after hostOps1_3 V (Proc.devRef .tc main_v19) : S512x512.Idx → EReal)
    = Host.roundeven (F := Ideal) (φ := .f32) (V (Proc.devRef .tc main_v18)) := by
  after_results <;> rfl
theorem ops14_v20 : (after hostOps1_4 V (Proc.devRef .tc main_v20) : S512x512.Idx → EReal)
    = hhi (V (Proc.devRef .tc main_v19)) := by
  after_results <;> rfl
theorem ops14_v23 : (after hostOps1_4 V (Proc.devRef .tc main_v23) : S512x512.Idx → EReal)
    = hlo (V (Proc.devRef .tc main_v19)) := by
  after_results <;> rfl
theorem ops14_v24 : (after hostOps1_4 V (Proc.devRef .tc main_v24) : S1x1.Idx → EReal)
    = shapeCast S1x1 (V (Proc.devRef .tc main_v6) : S_.Idx → EReal) shapeCasts_S_S1x1 := by
  after_results <;> rfl
theorem ops14_v25 : (after hostOps1_4 V (Proc.devRef .tc main_v25) : S1x1.Idx → EReal)
    = shapeCast S1x1 (V (Proc.devRef .tc main_v16) : S_.Idx → EReal) shapeCasts_S_S1x1 := by
  after_results <;> rfl
theorem ops0_v0 : (after hostOps0 V (Proc.devRef .tc main_v0) : S65536x512.Idx → EReal)
    = shapeCast S65536x512 (V (Proc.devRef .tc main_arg0) : S16x4096x512.Idx → EReal) shapeCasts_S16x4096x512_S65536x512 := by
  after_results <;> rfl
theorem ops2_v27 : (after hostOps2 V (Proc.devRef .tc main_v27) : S16x4096x512.Idx → EReal)
    = shapeCast S16x4096x512 (V (Proc.devRef .tc main_v26_0) : S65536x512.Idx → EReal) shapeCasts_S65536x512_S16x4096x512 := by
  after_results <;> rfl
theorem ops2_v28 : (after hostOps2 V (Proc.devRef .tc main_v28) : S16x4096x512.Idx → EReal)
    = shapeCast S16x4096x512 (V (Proc.devRef .tc main_v26_1) : S65536x512.Idx → EReal) shapeCasts_S65536x512_S16x4096x512 := by
  after_results <;> rfl

end Stretches

/-! ## The buffers at the two regions' entries -/

section Fold

variable (m : (ℓ : Loc nD τ sig) → Buf (Elt Ideal) ℓ) (ρ : Dev nD → PrngReg) (c : Dev nD)

/-- The three argument arrays' contents. -/
abbrev argX : S16x4096x512.Idx → EReal := m ((c : Thread nD τ).loc main_arg0)
abbrev argWr : S512x512.Idx → EReal := m ((c : Thread nD τ).loc main_arg1)
abbrev argWi : S512x512.Idx → EReal := m ((c : Thread nD τ).loc main_arg2)

/-! ### The arguments are untouched up to each stretch that reads them -/

theorem W1_arg0 : (W0 m ρ c (Proc.devRef .tc main_arg0) : S16x4096x512.Idx → EReal) = argX m c := rfl

theorem W2_arg1 : (W2 m ρ c (Proc.devRef .tc main_arg1) : S512x512.Idx → EReal) = argWr m c :=
  calc W2 m ρ c (Proc.devRef .tc main_arg1)
    _ = W1 m ρ c (Proc.devRef .tc main_arg1) := W2_of_ne m ρ c main_arg1 (by decide)
    _ = W0 m ρ c (Proc.devRef .tc main_arg1) := after_of_writes_sub hostOps0 _ hostOps0_writes (by decide)
    _ = argWr m c := rfl

theorem W4_arg2 : (W4 m ρ c (Proc.devRef .tc main_arg2) : S512x512.Idx → EReal) = argWi m c :=
  calc W4 m ρ c (Proc.devRef .tc main_arg2)
    _ = W3 m ρ c (Proc.devRef .tc main_arg2) := after_of_writes_sub hostOps1_1 _ hostOps1_1_writes (by decide)
    _ = W2 m ρ c (Proc.devRef .tc main_arg2) := after_of_writes_sub hostOps1 _ hostOps1_writes (by decide)
    _ = W1 m ρ c (Proc.devRef .tc main_arg2) := W2_of_ne m ρ c main_arg2 (by decide)
    _ = W0 m ρ c (Proc.devRef .tc main_arg2) := after_of_writes_sub hostOps0 _ hostOps0_writes (by decide)
    _ = argWi m c := rfl

/-! ### The reshaped activations: written by the first stretch, an input of both regions, never written again -/

theorem E0_v0 : (E0 m ρ c main_v0 : S65536x512.Idx → EReal)
    = shapeCast S65536x512 (argX m c) shapeCasts_S16x4096x512_S65536x512 :=
  ops0_v0 _

theorem W2_v0 : W2 m ρ c (Proc.devRef .tc main_v0) = W1 m ρ c (Proc.devRef .tc main_v0) :=
  calc W2 m ρ c (Proc.devRef .tc main_v0)
    _ = (dat0 (E0 m ρ) c).arrAt 0 cfg0.N := W2_arr m ρ c 0
    _ = (dat0 (E0 m ρ) c).A 0 := Pipeline.Dat.arrAt_in _ 0 rfl _
    _ = W1 m ρ c (Proc.devRef .tc main_v0) := A_eq0 (E0 m ρ) c 0

theorem E1_v0_eq : E1 m ρ c main_v0 = E0 m ρ c main_v0 :=
  calc W7 m ρ c (Proc.devRef .tc main_v0)
    _ = W6 m ρ c (Proc.devRef .tc main_v0) := after_of_writes_sub hostOps1_4 _ hostOps1_4_writes (by decide)
    _ = W5 m ρ c (Proc.devRef .tc main_v0) := after_of_writes_sub hostOps1_3 _ hostOps1_3_writes (by decide)
    _ = W4 m ρ c (Proc.devRef .tc main_v0) := after_of_writes_sub hostOps1_2 _ hostOps1_2_writes (by decide)
    _ = W3 m ρ c (Proc.devRef .tc main_v0) := after_of_writes_sub hostOps1_1 _ hostOps1_1_writes (by decide)
    _ = W2 m ρ c (Proc.devRef .tc main_v0) := after_of_writes_sub hostOps1 _ hostOps1_writes (by decide)
    _ = W1 m ρ c (Proc.devRef .tc main_v0) := W2_v0 m ρ c

/-! ### The first weight matrix: divided by its step, rounded, split -/

theorem W3_v8 : (W3 m ρ c (Proc.devRef .tc main_v8) : S512x512.Idx → EReal) = hdiv (argWr m c) :=
  (ops1_v8 _).trans (congrArg hdiv (W2_arg1 m ρ c))
theorem W4_v9 : (W4 m ρ c (Proc.devRef .tc main_v9) : S512x512.Idx → EReal)
    = Host.roundeven (F := Ideal) (φ := .f32) (hdiv (argWr m c)) :=
  (ops11_v9 _).trans (congrArg (Host.roundeven (F := Ideal) (φ := .f32)) (W3_v8 m ρ c))
theorem W5_v10 : (W5 m ρ c (Proc.devRef .tc main_v10) : S512x512.Idx → EReal)
    = hhi (Host.roundeven (F := Ideal) (φ := .f32) (hdiv (argWr m c))) :=
  (ops12_v10 _).trans (congrArg hhi (W4_v9 m ρ c))
theorem W5_v13 : (W5 m ρ c (Proc.devRef .tc main_v13) : S512x512.Idx → EReal)
    = hlo (Host.roundeven (F := Ideal) (φ := .f32) (hdiv (argWr m c))) :=
  (ops12_v13 _).trans (congrArg hlo (W4_v9 m ρ c))
theorem E1_v10 : (E1 m ρ c main_v10 : S512x512.Idx → EReal)
    = hhi (Host.roundeven (F := Ideal) (φ := .f32) (hdiv (argWr m c))) :=
  calc W7 m ρ c (Proc.devRef .tc main_v10)
    _ = W6 m ρ c (Proc.devRef .tc main_v10) := after_of_writes_sub hostOps1_4 _ hostOps1_4_writes (by decide)
    _ = W5 m ρ c (Proc.devRef .tc main_v10) := after_of_writes_sub hostOps1_3 _ hostOps1_3_writes (by decide)
    _ = _ := W5_v10 m ρ c
theorem E1_v13 : (E1 m ρ c main_v13 : S512x512.Idx → EReal)
    = hlo (Host.roundeven (F := Ideal) (φ := .f32) (hdiv (argWr m c))) :=
  calc W7 m ρ c (Proc.devRef .tc main_v13)
    _ = W6 m ρ c (Proc.devRef .tc main_v13) := after_of_writes_sub hostOps1_4 _ hostOps1_4_writes (by decide)
    _ = W5 m ρ c (Proc.devRef .tc main_v13) := after_of_writes_sub hostOps1_3 _ hostOps1_3_writes (by decide)
    _ = _ := W5_v13 m ρ c

/-! ### The second weight matrix -/

theorem W5_v18 : (W5 m ρ c (Proc.devRef .tc main_v18) : S512x512.Idx → EReal) = hdiv (argWi m c) :=
  (ops12_v18 _).trans (congrArg hdiv (W4_arg2 m ρ c))
theorem W6_v19 : (W6 m ρ c (Proc.devRef .tc main_v19) : S512x512.Idx → EReal)
    = Host.roundeven (F := Ideal) (φ := .f32) (hdiv (argWi m c)) :=
  (ops13_v19 _).trans (congrArg (Host.roundeven (F := Ideal) (φ := .f32)) (W5_v18 m ρ c))
theorem E1_v20 : (E1 m ρ c main_v20 : S512x512.Idx → EReal)
    = hhi (Host.roundeven (F := Ideal) (φ := .f32) (hdiv (argWi m c))) :=
  (ops14_v20 _).trans (congrArg hhi (W6_v19 m ρ c))
theorem E1_v23 : (E1 m ρ c main_v23 : S512x512.Idx → EReal)
    = hlo (Host.roundeven (F := Ideal) (φ := .f32) (hdiv (argWi m c))) :=
  (ops14_v23 _).trans (congrArg hlo (W6_v19 m ρ c))

/-! ### The two weight steps, reshaped to one-entry matrices -/

theorem W3_v6 : (W3 m ρ c (Proc.devRef .tc main_v6) : S_.Idx → EReal) = hstep (argWr m c) :=
  (ops1_v6 _).trans (congrArg hstep (W2_arg1 m ρ c))
theorem W6_v6 : (W6 m ρ c (Proc.devRef .tc main_v6) : S_.Idx → EReal) = hstep (argWr m c) :=
  calc W6 m ρ c (Proc.devRef .tc main_v6)
    _ = W5 m ρ c (Proc.devRef .tc main_v6) := after_of_writes_sub hostOps1_3 _ hostOps1_3_writes (by decide)
    _ = W4 m ρ c (Proc.devRef .tc main_v6) := after_of_writes_sub hostOps1_2 _ hostOps1_2_writes (by decide)
    _ = W3 m ρ c (Proc.devRef .tc main_v6) := after_of_writes_sub hostOps1_1 _ hostOps1_1_writes (by decide)
    _ = _ := W3_v6 m ρ c
theorem E1_v24 : (E1 m ρ c main_v24 : S1x1.Idx → EReal) = shapeCast S1x1 (hstep (argWr m c)) shapeCasts_S_S1x1 :=
  (ops14_v24 _).trans (congrArg (fun v : S_.Idx → EReal => shapeCast S1x1 v shapeCasts_S_S1x1) (W6_v6 m ρ c))
theorem W5_v16 : (W5 m ρ c (Proc.devRef .tc main_v16) : S_.Idx → EReal) = hstep (argWi m c) :=
  (ops12_v16 _).trans (congrArg hstep (W4_arg2 m ρ c))
theorem W6_v16 : (W6 m ρ c (Proc.devRef .tc main_v16) : S_.Idx → EReal) = hstep (argWi m c) :=
  calc W6 m ρ c (Proc.devRef .tc main_v16)
    _ = W5 m ρ c (Proc.devRef .tc main_v16) := after_of_writes_sub hostOps1_3 _ hostOps1_3_writes (by decide)
    _ = _ := W5_v16 m ρ c
theorem E1_v25 : (E1 m ρ c main_v25 : S1x1.Idx → EReal) = shapeCast S1x1 (hstep (argWi m c)) shapeCasts_S_S1x1 :=
  (ops14_v25 _).trans (congrArg (fun v : S_.Idx → EReal => shapeCast S1x1 v shapeCasts_S_S1x1) (W6_v16 m ρ c))

/-! ### The activations' step: the first region's one entry over 32767 -/

theorem E1_v3 : (E1 m ρ c main_v3 : S1x1.Idx → EReal)
    = Host.divf (F := Ideal) (φ := .f32) (W2 m ρ c (Proc.devRef .tc main_v1))
        (broadcastInDim S1x1 ![] bcast_S_S1x1 (constant (F := Ideal) S_ .f32 0x46FFFE00#32)) :=
  calc W7 m ρ c (Proc.devRef .tc main_v3)
    _ = W6 m ρ c (Proc.devRef .tc main_v3) := after_of_writes_sub hostOps1_4 _ hostOps1_4_writes (by decide)
    _ = W5 m ρ c (Proc.devRef .tc main_v3) := after_of_writes_sub hostOps1_3 _ hostOps1_3_writes (by decide)
    _ = W4 m ρ c (Proc.devRef .tc main_v3) := after_of_writes_sub hostOps1_2 _ hostOps1_2_writes (by decide)
    _ = W3 m ρ c (Proc.devRef .tc main_v3) := after_of_writes_sub hostOps1_1 _ hostOps1_1_writes (by decide)
    _ = _ := ops1_v3 _

end Fold

/-! ## The terms read at an index -/

section Pointwise

theorem ofBits_neg_inf : Ideal.ofBits .f32 0xFF800000#32 = ⊥ := by
  simp [Ideal.ofBits, Ideal.ieee]

theorem fold_max_bot {ι : Type} (t : Finset ι) (f : ι → EReal) :
    t.fold (FloatOps.maximumf (F := Ideal) (φ := .f32)) ⊥ f = t.sup f := by
  induction t using Finset.cons_induction with
  | empty => simp
  | cons a t ha ih => rw [Finset.fold_cons, Finset.sup_cons, ih]; rfl

/-- A maximum-reduce of the absolute values over every axis, from -∞, is the supremum of the absolute values. -/
theorem reduce_max_abs {s : Shape} {axes : List (Fin s.rank)} (x : s.Idx → EReal) (h : s.ReducesTo axes S_)
    (hu : 0 < S_.numel) (j : S_.Idx) :
    Host.reduce (FloatOps.maximumf (F := Ideal) (φ := .f32)) (Host.absf (F := Ideal) (φ := .f32) x)
      (constant (F := Ideal) S_ .f32 0xFF800000#32) h hu j = amax x := by
  rw [Host.reduce_eq_fold]
  have hf : (Finset.univ.filter fun i : s.Idx => h.drop i = j) = Finset.univ :=
    Finset.filter_true_of_mem fun i _ => (eq_ix0 _).trans (eq_ix0 _).symm
  rw [hf]
  show Finset.univ.fold (FloatOps.maximumf (F := Ideal) (φ := .f32)) (Ideal.ofBits .f32 0xFF800000#32) (fun i => absE (x i)) = _
  rw [ofBits_neg_inf, fold_max_bot, Finset.sup_univ_eq_iSup]
  rfl

/-- The host's step of a weight matrix is the specification's. -/
theorem hstep_apply (w : S512x512.Idx → EReal) (j : S_.Idx) : hstep w j = scale (amax w) := by
  show FloatOps.hostDivf (F := Ideal) (φ := .f32) (Host.reduce _ _ _ _ _ j) (constant (F := Ideal) S_ .f32 0x46FFFE00#32 j) = _
  rw [reduce_max_abs]
  rfl

/-- The host's rounded quotient of a weight matrix by its step is the specification's quantized matrix. -/
theorem round_hdiv_apply (w : S512x512.Idx → EReal) (j : S512x512.Idx) :
    Host.roundeven (F := Ideal) (φ := .f32) (hdiv w) j = wquant w j := by
  show FloatOps.hostUnary (F := Ideal) (φ := .f32) .roundeven
    (FloatOps.hostDivf (F := Ideal) (φ := .f32) (w j) (broadcastInDim S512x512 ![] bcast_S_S512x512 (hstep w) j)) = _
  rw [broadcastInDim_apply _ bcast_S_S512x512 _ j ix0 (fun a => a.elim0), hstep_apply]
  rfl

/-- Narrowing and widening change nothing: the high part is the value, the low part the value less itself. -/
theorem hhi_apply (v : S512x512.Idx → EReal) (j : S512x512.Idx) : hhi v j = v j := rfl
theorem hlo_apply (v : S512x512.Idx → EReal) (j : S512x512.Idx) : hlo v j = v j - v j := rfl

/-- A scalar reshaped to a one-entry matrix, read at its entry. -/
theorem cast_scalar_apply (v : S_.Idx → EReal) : shapeCast S1x1 v shapeCasts_S_S1x1 (ix2 0 0) = v ix0 := by
  refine shapeCast_apply v shapeCasts_S_S1x1 (ix2 0 0) ix0 ?_
  rw [Shape.rowMajor_val_two]
  have h := (S_.rowMajor ix0).isLt
  have h1 : S_.numel = 1 := by decide
  show (S_.rowMajor ix0).val = 0 * 1 + 0
  omega

/-- The activations reshaped to 65536 rows, read at row  b * 4096 + t. -/
theorem cast_rows_apply (x : S16x4096x512.Idx → EReal) (b : Fin 16) (t : Fin 4096) (k : Fin 512) (r : Fin 65536)
    (hr : r.val = b.val * 4096 + t.val) :
    shapeCast S65536x512 x shapeCasts_S16x4096x512_S65536x512 (ix2 r k) = x (ix3 b t k) := by
  refine shapeCast_apply x shapeCasts_S16x4096x512_S65536x512 (ix2 r k) (ix3 b t k) ?_
  rw [Shape.rowMajor_val_three, Shape.rowMajor_val_two]
  show (b.val * 4096 + t.val) * 512 + k.val = r.val * 512 + k.val
  omega

/-- A 65536-row result reshaped back, read at  (b, t, q). -/
theorem cast_back_apply (y : S65536x512.Idx → EReal) (b : Fin 16) (t : Fin 4096) (q : Fin 512) (r : Fin 65536)
    (hr : r.val = b.val * 4096 + t.val) :
    shapeCast S16x4096x512 y shapeCasts_S65536x512_S16x4096x512 (ix3 b t q) = y (ix2 r q) := by
  refine shapeCast_apply y shapeCasts_S65536x512_S16x4096x512 (ix3 b t q) (ix2 r q) ?_
  rw [Shape.rowMajor_val_three, Shape.rowMajor_val_two]
  show r.val * 512 + q.val = (b.val * 4096 + t.val) * 512 + q.val
  omega

end Pointwise

/-! ## The statements the regions' values are read against -/

section Results

variable (m : (ℓ : Loc nD τ sig) → Buf (Elt Ideal) ℓ) (ρ : Dev nD → PrngReg) (c : Dev nD)

/-- The one entry the first region produced. -/
abbrev regionMax : EReal := (W2 m ρ c (Proc.devRef .tc main_v1) : S1x1.Idx → EReal) (ix2 0 0)

/-- The reshaped activations at both regions' entries. -/
theorem E0_v0_apply (b : Fin 16) (t : Fin 4096) (k : Fin 512) (r : Fin 65536) (hr : r.val = b.val * 4096 + t.val) :
    (E0 m ρ c main_v0 : S65536x512.Idx → EReal) (ix2 r k) = argX m c (ix3 b t k) := by
  rw [E0_v0]; exact cast_rows_apply _ b t k r hr
theorem E1_v0_apply (b : Fin 16) (t : Fin 4096) (k : Fin 512) (r : Fin 65536) (hr : r.val = b.val * 4096 + t.val) :
    (E1 m ρ c main_v0 : S65536x512.Idx → EReal) (ix2 r k) = argX m c (ix3 b t k) := by
  rw [E1_v0_eq]; exact E0_v0_apply m ρ c b t k r hr

/-- The activations' step at the second region's entry. -/
theorem E1_v3_apply : (E1 m ρ c main_v3 : S1x1.Idx → EReal) (ix2 0 0) = scale (regionMax m ρ c) := by
  rw [E1_v3]
  show FloatOps.hostDivf (F := Ideal) (φ := .f32) _ (broadcastInDim S1x1 ![] bcast_S_S1x1 (constant (F := Ideal) S_ .f32 0x46FFFE00#32) (ix2 0 0)) = _
  rw [broadcastInDim_apply _ bcast_S_S1x1 _ (ix2 0 0) ix0 (fun a => a.elim0)]
  rfl

/-- The two weight matrices' parts at the second region's entry. -/
theorem E1_v10_eq : (E1 m ρ c main_v10 : S512x512.Idx → EReal) = wquant (argWr m c) := by
  rw [E1_v10]; funext j; rw [hhi_apply, round_hdiv_apply]
theorem E1_v13_eq : (E1 m ρ c main_v13 : S512x512.Idx → EReal) = fun j => wquant (argWr m c) j - wquant (argWr m c) j := by
  rw [E1_v13]; funext j; rw [hlo_apply, round_hdiv_apply]
theorem E1_v20_eq : (E1 m ρ c main_v20 : S512x512.Idx → EReal) = wquant (argWi m c) := by
  rw [E1_v20]; funext j; rw [hhi_apply, round_hdiv_apply]
theorem E1_v23_eq : (E1 m ρ c main_v23 : S512x512.Idx → EReal) = fun j => wquant (argWi m c) j - wquant (argWi m c) j := by
  rw [E1_v23]; funext j; rw [hlo_apply, round_hdiv_apply]

/-- The two weight steps at the second region's entry. -/
theorem E1_v24_apply : (E1 m ρ c main_v24 : S1x1.Idx → EReal) (ix2 0 0) = scale (amax (argWr m c)) := by
  rw [E1_v24, cast_scalar_apply, hstep_apply]
theorem E1_v25_apply : (E1 m ρ c main_v25 : S1x1.Idx → EReal) (ix2 0 0) = scale (amax (argWi m c)) := by
  rw [E1_v25, cast_scalar_apply, hstep_apply]

/-- The two results: the second region's outputs reshaped back. -/
theorem W9_v27_apply (b : Fin 16) (t : Fin 4096) (q : Fin 512) (r : Fin 65536) (hr : r.val = b.val * 4096 + t.val) :
    (W9 m ρ c (Proc.devRef .tc main_v27) : S16x4096x512.Idx → EReal) (ix3 b t q)
      = (W8 m ρ c (Proc.devRef .tc main_v26_0) : S65536x512.Idx → EReal) (ix2 r q) := by
  rw [show (W9 m ρ c (Proc.devRef .tc main_v27) : S16x4096x512.Idx → EReal) = _ from ops2_v27 _]
  exact cast_back_apply _ b t q r hr
theorem W9_v28_apply (b : Fin 16) (t : Fin 4096) (q : Fin 512) (r : Fin 65536) (hr : r.val = b.val * 4096 + t.val) :
    (W9 m ρ c (Proc.devRef .tc main_v28) : S16x4096x512.Idx → EReal) (ix3 b t q)
      = (W8 m ρ c (Proc.devRef .tc main_v26_1) : S65536x512.Idx → EReal) (ix2 r q) := by
  rw [show (W9 m ρ c (Proc.devRef .tc main_v28) : S16x4096x512.Idx → EReal) = _ from ops2_v28 _]
  exact cast_back_apply _ b t q r hr

end Results

end Cert.KernelIdeal.Hand.Glue

end
-- ==== Proof.KernelValue.lean ====
import proofs.«134259_j19490561590113_1_alg».proof.Proof.Launches
import proofs.«134259_j19490561590113_1_alg».proof.Proof.QmmValue
import proofs.«134259_j19490561590113_1_alg».proof.Proof.Spec
import proofs.«134259_j19490561590113_1_alg».proof.Proof.AbsmaxValue
import proofs.«134259_j19490561590113_1_alg».proof.Proof.HostGlue

/-! # The kernel program's two results, over the extended reals

The run of @main is a fold of the buffer contents through nine segments. Read at the two result buffers:
the last reshape reads the second region's output arrays; those are the split products of the region's entry
arrays (the quantised-matmul region's value); the entry arrays are the reshaped activations, the activation
scale — the first region's supremum of |x| over 32767 —, each weight's two parts and its scale. Put together,
each result entry is the spec's split product of the launch arrays. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.QuantMatmul

/-- The largest absolute value does not see the reshape of 16 x 4096 rows into 65536: the two arrays have the same
    entries. -/
theorem amax_rows (A : S65536x512.Idx → EReal) (X : S16x4096x512.Idx → EReal)
    (h : ∀ (r : Fin 65536) (k : Fin 512) (b : Fin 16) (t : Fin 4096), r.val = b.val * 4096 + t.val →
      A (ix2 r k) = X (ix3 b t k)) : amax A = amax X := by
  unfold amax
  apply le_antisymm
  · refine iSup_le fun j => ?_
    obtain ⟨r, k, rfl⟩ : ∃ (r : Fin 65536) (k : Fin 512), j = ix2 r k := ⟨j 0, j 1, eq_ix2 j⟩
    have hr : r.val < 65536 := r.isLt
    rw [h r k ⟨r.val / 4096, by omega⟩ ⟨r.val % 4096, by omega⟩ (by show r.val = r.val / 4096 * 4096 + r.val % 4096; omega)]
    exact le_iSup (fun i => absE (X i)) _
  · refine iSup_le fun i => ?_
    obtain ⟨b, t, k, rfl⟩ : ∃ (b : Fin 16) (t : Fin 4096) (k : Fin 512), i = ix3 b t k := ⟨i 0, i 1, i 2, eq_ix3 i⟩
    have hb : b.val < 16 := b.isLt
    have ht : t.val < 4096 := t.isLt
    rw [← h ⟨b.val * 4096 + t.val, by omega⟩ k b t rfl]
    exact le_iSup (fun j => absE (A j)) _

section Compose

variable (m : (ℓ : Loc nD τ sig) → Buf (Elt Ideal) ℓ) (ρ : Dev nD → PrngReg) (c : Dev nD)

/-- The real result from the stages: the last reshape reads the region's output array, which is the split product
    of the region's entry arrays, which are the quantised activations' rows and the weight's two parts. -/
theorem result_real_of (X : S16x4096x512.Idx → EReal) (Wm : S512x512.Idx → EReal)
    (hX1 : ∀ (r : Fin 65536) (k : Fin 512) (b : Fin 16) (t : Fin 4096), r.val = b.val * 4096 + t.val →
      (E1 m ρ c main_v0 : S65536x512.Idx → EReal) (ix2 r k) = X (ix3 b t k))
    (hX0 : ∀ (r : Fin 65536) (k : Fin 512) (b : Fin 16) (t : Fin 4096), r.val = b.val * 4096 + t.val →
      (E0 m ρ c main_v0 : S65536x512.Idx → EReal) (ix2 r k) = X (ix3 b t k))
    (hs : (E1 m ρ c main_v3 : S1x1.Idx → EReal) (ix2 0 0)
      = scale ((W2 m ρ c (Proc.devRef .tc main_v1) : S1x1.Idx → EReal) (ix2 0 0)))
    (hWh : (E1 m ρ c main_v10 : S512x512.Idx → EReal) = wquant Wm)
    (hWl : (E1 m ρ c main_v13 : S512x512.Idx → EReal) = fun j => wquant Wm j - wquant Wm j)
    (hws : (E1 m ρ c main_v24 : S1x1.Idx → EReal) (ix2 0 0) = scale (amax Wm))
    (hout : ∀ (b : Fin 16) (t : Fin 4096) (q : Fin 512) (r : Fin 65536), r.val = b.val * 4096 + t.val →
      (W9 m ρ c (Proc.devRef .tc main_v27) : S16x4096x512.Idx → EReal) (ix3 b t q)
        = (W8 m ρ c (Proc.devRef .tc main_v26_0) : S65536x512.Idx → EReal) (ix2 r q))
    (hmax : ((dat0 (F := Ideal) (E0 m ρ) c).arrAt 1 cfg0.N : S1x1.Idx → EReal)
      = fun _ => amax (E0 m ρ c main_v0 : S65536x512.Idx → EReal)) :
    (W9 m ρ c (Proc.devRef .tc main_v27) : S16x4096x512.Idx → EReal)
      = fun i => outSplit (scale (amax X)) (fun k => X (ix3 (i 0 : Fin 16) (i 1 : Fin 4096) k)) (wquant Wm)
          (fun j => wquant Wm j - wquant Wm j) (scale (amax Wm)) (i 2 : Fin 512) := by
  funext i
  obtain ⟨b, t, q, rfl⟩ : ∃ (b : Fin 16) (t : Fin 4096) (q : Fin 512), i = ix3 b t q := ⟨i 0, i 1, i 2, eq_ix3 i⟩
  show _ = outSplit (scale (amax X)) (fun k => X (ix3 b t k)) (wquant Wm) (fun j => wquant Wm j - wquant Wm j) (scale (amax Wm)) q
  have hb : b.val < 16 := b.isLt
  have ht : t.val < 4096 := t.isLt
  have hr : b.val * 4096 + t.val < 65536 := by omega
  rw [hout b t q ⟨b.val * 4096 + t.val, hr⟩ rfl]
  rw [show (W8 m ρ c (Proc.devRef .tc main_v26_0) : S65536x512.Idx → EReal) = (dat1 (E1 m ρ) c).arrAt 8 cfg1.N from W8_arr m ρ c 8]
  rw [final8 (E1 m ρ) c]
  show outSplit ((E1 m ρ c main_v3 : S1x1.Idx → EReal) (ix2 0 0))
      (fun k => (E1 m ρ c main_v0 : S65536x512.Idx → EReal) (ix2 ⟨b.val * 4096 + t.val, hr⟩ k))
      (E1 m ρ c main_v10) (E1 m ρ c main_v13) ((E1 m ρ c main_v24 : S1x1.Idx → EReal) (ix2 0 0)) q = _
  have hM : (W2 m ρ c (Proc.devRef .tc main_v1) : S1x1.Idx → EReal) (ix2 0 0) = amax X := by
    rw [show (W2 m ρ c (Proc.devRef .tc main_v1) : S1x1.Idx → EReal) = (dat0 (E0 m ρ) c).arrAt 1 cfg0.N from W2_arr m ρ c 1, hmax]
    exact amax_rows _ _ hX0
  rw [hs, hM, hWh, hWl, hws]
  have hrow : (fun k => (E1 m ρ c main_v0 : S65536x512.Idx → EReal) (ix2 ⟨b.val * 4096 + t.val, hr⟩ k)) = fun k => X (ix3 b t k) :=
    funext fun k => hX1 ⟨b.val * 4096 + t.val, hr⟩ k b t rfl
  rw [hrow]

/-- The imag result from the stages: the last reshape reads the region's output array, which is the split product
    of the region's entry arrays, which are the quantised activations' rows and the weight's two parts. -/
theorem result_imag_of (X : S16x4096x512.Idx → EReal) (Wm : S512x512.Idx → EReal)
    (hX1 : ∀ (r : Fin 65536) (k : Fin 512) (b : Fin 16) (t : Fin 4096), r.val = b.val * 4096 + t.val →
      (E1 m ρ c main_v0 : S65536x512.Idx → EReal) (ix2 r k) = X (ix3 b t k))
    (hX0 : ∀ (r : Fin 65536) (k : Fin 512) (b : Fin 16) (t : Fin 4096), r.val = b.val * 4096 + t.val →
      (E0 m ρ c main_v0 : S65536x512.Idx → EReal) (ix2 r k) = X (ix3 b t k))
    (hs : (E1 m ρ c main_v3 : S1x1.Idx → EReal) (ix2 0 0)
      = scale ((W2 m ρ c (Proc.devRef .tc main_v1) : S1x1.Idx → EReal) (ix2 0 0)))
    (hWh : (E1 m ρ c main_v20 : S512x512.Idx → EReal) = wquant Wm)
    (hWl : (E1 m ρ c main_v23 : S512x512.Idx → EReal) = fun j => wquant Wm j - wquant Wm j)
    (hws : (E1 m ρ c main_v25 : S1x1.Idx → EReal) (ix2 0 0) = scale (amax Wm))
    (hout : ∀ (b : Fin 16) (t : Fin 4096) (q : Fin 512) (r : Fin 65536), r.val = b.val * 4096 + t.val →
      (W9 m ρ c (Proc.devRef .tc main_v28) : S16x4096x512.Idx → EReal) (ix3 b t q)
        = (W8 m ρ c (Proc.devRef .tc main_v26_1) : S65536x512.Idx → EReal) (ix2 r q))
    (hmax : ((dat0 (F := Ideal) (E0 m ρ) c).arrAt 1 cfg0.N : S1x1.Idx → EReal)
      = fun _ => amax (E0 m ρ c main_v0 : S65536x512.Idx → EReal)) :
    (W9 m ρ c (Proc.devRef .tc main_v28) : S16x4096x512.Idx → EReal)
      = fun i => outSplit (scale (amax X)) (fun k => X (ix3 (i 0 : Fin 16) (i 1 : Fin 4096) k)) (wquant Wm)
          (fun j => wquant Wm j - wquant Wm j) (scale (amax Wm)) (i 2 : Fin 512) := by
  funext i
  obtain ⟨b, t, q, rfl⟩ : ∃ (b : Fin 16) (t : Fin 4096) (q : Fin 512), i = ix3 b t q := ⟨i 0, i 1, i 2, eq_ix3 i⟩
  show _ = outSplit (scale (amax X)) (fun k => X (ix3 b t k)) (wquant Wm) (fun j => wquant Wm j - wquant Wm j) (scale (amax Wm)) q
  have hb : b.val < 16 := b.isLt
  have ht : t.val < 4096 := t.isLt
  have hr : b.val * 4096 + t.val < 65536 := by omega
  rw [hout b t q ⟨b.val * 4096 + t.val, hr⟩ rfl]
  rw [show (W8 m ρ c (Proc.devRef .tc main_v26_1) : S65536x512.Idx → EReal) = (dat1 (E1 m ρ) c).arrAt 9 cfg1.N from W8_arr m ρ c 9]
  rw [final9 (E1 m ρ) c]
  show outSplit ((E1 m ρ c main_v3 : S1x1.Idx → EReal) (ix2 0 0))
      (fun k => (E1 m ρ c main_v0 : S65536x512.Idx → EReal) (ix2 ⟨b.val * 4096 + t.val, hr⟩ k))
      (E1 m ρ c main_v20) (E1 m ρ c main_v23) ((E1 m ρ c main_v25 : S1x1.Idx → EReal) (ix2 0 0)) q = _
  have hM : (W2 m ρ c (Proc.devRef .tc main_v1) : S1x1.Idx → EReal) (ix2 0 0) = amax X := by
    rw [show (W2 m ρ c (Proc.devRef .tc main_v1) : S1x1.Idx → EReal) = (dat0 (E0 m ρ) c).arrAt 1 cfg0.N from W2_arr m ρ c 1, hmax]
    exact amax_rows _ _ hX0
  rw [hs, hM, hWh, hWl, hws]
  have hrow : (fun k => (E1 m ρ c main_v0 : S65536x512.Idx → EReal) (ix2 ⟨b.val * 4096 + t.val, hr⟩ k)) = fun k => X (ix3 b t k) :=
    funext fun k => hX1 ⟨b.val * 4096 + t.val, hr⟩ k b t rfl
  rw [hrow]

end Compose

/-! ## The two results -/

/-- The real result, entry by entry: the split product of the quantised activations' row with the quantised real
    weight's column, times the two steps. -/
theorem result_real (m : (ℓ : Loc nD τ sig) → Buf (Elt Ideal) ℓ) (ρ : Dev nD → PrngReg) (c : Dev nD) :
    (W9 (F := Ideal) m ρ c (Proc.devRef .tc main_v27) : S16x4096x512.Idx → EReal)
      = fun i => outSplit (scale (amax (m ((c : Thread nD τ).loc main_arg0) : S16x4096x512.Idx → EReal)))
          (fun k => (m ((c : Thread nD τ).loc main_arg0) : S16x4096x512.Idx → EReal) (ix3 (i 0 : Fin 16) (i 1 : Fin 4096) k))
          (wquant (m ((c : Thread nD τ).loc main_arg1) : S512x512.Idx → EReal))
          (fun j => wquant (m ((c : Thread nD τ).loc main_arg1) : S512x512.Idx → EReal) j
            - wquant (m ((c : Thread nD τ).loc main_arg1) : S512x512.Idx → EReal) j)
          (scale (amax (m ((c : Thread nD τ).loc main_arg1) : S512x512.Idx → EReal))) (i 2 : Fin 512) :=
  result_real_of m ρ c (Glue.argX m c) (Glue.argWr m c)
    (fun r k b t hr => Glue.E1_v0_apply m ρ c b t k r hr) (fun r k b t hr => Glue.E0_v0_apply m ρ c b t k r hr)
    (Glue.E1_v3_apply m ρ c) (Glue.E1_v10_eq m ρ c) (Glue.E1_v13_eq m ρ c) (Glue.E1_v24_apply m ρ c)
    (fun b t q r hr => Glue.W9_v27_apply m ρ c b t q r hr) (final1 (E0 m ρ) c)

/-- The imaginary result, the same with the imaginary weight. -/
theorem result_imag (m : (ℓ : Loc nD τ sig) → Buf (Elt Ideal) ℓ) (ρ : Dev nD → PrngReg) (c : Dev nD) :
    (W9 (F := Ideal) m ρ c (Proc.devRef .tc main_v28) : S16x4096x512.Idx → EReal)
      = fun i => outSplit (scale (amax (m ((c : Thread nD τ).loc main_arg0) : S16x4096x512.Idx → EReal)))
          (fun k => (m ((c : Thread nD τ).loc main_arg0) : S16x4096x512.Idx → EReal) (ix3 (i 0 : Fin 16) (i 1 : Fin 4096) k))
          (wquant (m ((c : Thread nD τ).loc main_arg2) : S512x512.Idx → EReal))
          (fun j => wquant (m ((c : Thread nD τ).loc main_arg2) : S512x512.Idx → EReal) j
            - wquant (m ((c : Thread nD τ).loc main_arg2) : S512x512.Idx → EReal) j)
          (scale (amax (m ((c : Thread nD τ).loc main_arg2) : S512x512.Idx → EReal))) (i 2 : Fin 512) :=
  result_imag_of m ρ c (Glue.argX m c) (Glue.argWi m c)
    (fun r k b t hr => Glue.E1_v0_apply m ρ c b t k r hr) (fun r k b t hr => Glue.E0_v0_apply m ρ c b t k r hr)
    (Glue.E1_v3_apply m ρ c) (Glue.E1_v20_eq m ρ c) (Glue.E1_v23_eq m ρ c) (Glue.E1_v25_apply m ρ c)
    (fun b t q r hr => Glue.W9_v28_apply m ρ c b t q r hr) (final1 (E0 m ρ) c)

end Cert.KernelIdeal.Hand

end
-- ==== Proof.RefIsSpec.lean ====
/-
  The reference program's two results, as the specification's function of the three argument arrays.

  The reference takes the largest absolute value of the activations and of each weight matrix (a
  maximum-reduce from -∞ over every axis: the supremum of the absolute values), divides by 32767 for
  the steps  s  and  ws,  rounds  x / s  and clamps it to the 16-bit range, rounds  w / ws,  splits the
  rounded weight into the planes  hi = floor (wq / 256),  lo = wq - hi * 256,  contracts the
  quantized activations' row with each plane's column, and returns  (hi-product * 256 + lo-product) * (s * ws):
  entry by entry that is `outPlanes`.  Read one operation at a time.
-/
import proofs.«134259_j19490561590113_1_alg».proof.Proof.Gen.ReferenceIdeal.Read
import proofs.«134259_j19490561590113_1_alg».proof.Proof.Spec
noncomputable section
namespace Cert.ReferenceIdeal.RefValue
open Cert.ReferenceIdeal Cert.ReferenceIdeal.Gen Cert.ReferenceIdeal.Read Cert.QuantMatmul
open Idealize.ShloMosaic Idealize.ShloMosaic.ValueIdx
open scoped BigOperators

/-- The activations' and a weight matrix's contents at the extended reals. -/
abbrev XArr : Type := (⟨S16x4096x512, .f32⟩ : BufTy).Contents (Elt Ideal)
abbrev WArr : Type := (⟨S512x512, .f32⟩ : BufTy).Contents (Elt Ideal)

theorem ofBits_neg_inf : Ideal.ofBits .f32 0xFF800000#32 = ⊥ := by
  simp [Ideal.ofBits, Ideal.ieee]

theorem fold_max_bot {ι : Type} (t : Finset ι) (f : ι → EReal) :
    t.fold (FloatOps.maximumf (F := Ideal) (φ := .f32)) ⊥ f = t.sup f := by
  induction t using Finset.cons_induction with
  | empty => simp
  | cons a t ha ih => rw [Finset.fold_cons, Finset.sup_cons, ih]; rfl

/-- A maximum-reduce of the absolute values over every axis, from -∞, is the supremum of the absolute values. -/
theorem reduce_max_abs {s : Shape} {axes : List (Fin s.rank)} (x : s.Idx → EReal) (h : s.ReducesTo axes S_)
    (hu : 0 < S_.numel) (j : S_.Idx) :
    Host.reduce (FloatOps.maximumf (F := Ideal) (φ := .f32)) (Host.absf (F := Ideal) (φ := .f32) x)
      (constant (F := Ideal) S_ .f32 0xFF800000#32) h hu j = amax x := by
  rw [Host.reduce_eq_fold]
  have hf : (Finset.univ.filter fun i : s.Idx => h.drop i = j) = Finset.univ :=
    Finset.filter_true_of_mem fun i _ => (eq_ix0 _).trans (eq_ix0 _).symm
  rw [hf]
  show Finset.univ.fold (FloatOps.maximumf (F := Ideal) (φ := .f32)) (Ideal.ofBits .f32 0xFF800000#32) (fun i => absE (x i)) = _
  rw [ofBits_neg_inf, fold_max_bot, Finset.sup_univ_eq_iSup]
  rfl

/-! ### The first result's stages -/

theorem v2_eq (x : XArr) (j : S_.Idx) : val_main_v2 (F := Ideal) x j = scale (amax x) := by
  rw [val_main_v2_apply]
  unfold val_main_v1 val_main_v0 val_main_cst
  rw [reduce_max_abs]
  rfl

theorem v6_eq (x : XArr) (i : S16x4096x512.Idx) : val_main_v6 (F := Ideal) x i = quant (scale (amax x)) (x i) := by
  rw [val_main_v6_apply, val_main_call1_v4_apply, val_main_call1_v3_apply, val_main_cst_2_apply, val_main_call1_v2_apply,
    val_main_call1_v1_apply, val_main_call1_v0_apply, val_main_cst_1_apply, val_main_v5_apply, val_main_v4_apply,
    val_main_v3_apply, v2_eq]
  rfl

theorem v9_eq (w : WArr) (j : S_.Idx) : val_main_v9 (F := Ideal) w j = scale (amax w) := by
  rw [val_main_v9_apply]
  unfold val_main_v8 val_main_v7 val_main_cst_3
  rw [reduce_max_abs]
  rfl

theorem v12_eq (w : WArr) (i : S512x512.Idx) : val_main_v12 (F := Ideal) w i = wquant w i := by
  rw [val_main_v12_apply, val_main_v11_apply, val_main_v10_apply, v9_eq]
  rfl

theorem v15_eq (w : WArr) (i : S512x512.Idx) :
    val_main_v15 (F := Ideal) w i = flr (Ideal.div (wquant w i) c256) := by
  rw [val_main_v15_apply, val_main_v14_apply, val_main_v13_apply, val_main_cst_5_apply, v12_eq]
  rfl

theorem v18_eq (w : WArr) (i : S512x512.Idx) :
    val_main_v18 (F := Ideal) w i = wquant w i - flr (Ideal.div (wquant w i) c256) * c256 := by
  rw [val_main_v18_apply, val_main_v17_apply, val_main_v16_apply, val_main_cst_6_apply, v15_eq, v12_eq]
  rfl

/-- The contraction's operand indices, by coordinates. -/
theorem lidx19_eq (b : Fin 16) (t : Fin 4096) (q k : Fin 512) : lidx_main_v19 (ix3 b t q) k = ix3 b t k :=
  funext fun a => match a with | ⟨0, _⟩ => rfl | ⟨1, _⟩ => rfl | ⟨2, _⟩ => rfl
theorem ridx19_eq (b : Fin 16) (t : Fin 4096) (q k : Fin 512) : ridx_main_v19 (ix3 b t q) k = ix2 k q :=
  funext fun a => match a with | ⟨0, _⟩ => rfl | ⟨1, _⟩ => rfl
theorem lidx22_eq (b : Fin 16) (t : Fin 4096) (q k : Fin 512) : lidx_main_v22 (ix3 b t q) k = ix3 b t k :=
  funext fun a => match a with | ⟨0, _⟩ => rfl | ⟨1, _⟩ => rfl | ⟨2, _⟩ => rfl
theorem ridx22_eq (b : Fin 16) (t : Fin 4096) (q k : Fin 512) : ridx_main_v22 (ix3 b t q) k = ix2 k q :=
  funext fun a => match a with | ⟨0, _⟩ => rfl | ⟨1, _⟩ => rfl

/-- The reference's first result, entry by entry: the activations' row against the first weight matrix's
    column, the weight split into two 8-bit planes. -/
theorem ref_real_apply (x : XArr) (w : WArr) (b : Fin 16) (t : Fin 4096) (q : Fin 512) :
    val_main_v26 (F := Ideal) x w (ix3 b t q)
      = outPlanes (scale (amax x)) (fun k => x (ix3 b t k)) (wquant w) (scale (amax w)) q := by
  rw [val_main_v26_apply, val_main_v25_apply, val_main_v24_apply, v2_eq, v9_eq, val_main_v23_apply, val_main_v21_apply,
    val_main_v20_apply, val_main_cst_7_apply, val_main_v19_apply, val_main_v22_apply]
  simp only [lidx19_eq, ridx19_eq, lidx22_eq, ridx22_eq, v6_eq, v15_eq, v18_eq, Ideal.mulf_def, Ideal.addf_def,
    Ideal.ofBits_def]
  unfold outPlanes c256
  rfl

/-! ### The second result's stages: the same operations on the second weight matrix -/

theorem v29_eq (x : XArr) (j : S_.Idx) : val_main_v29 (F := Ideal) x j = scale (amax x) := by
  rw [val_main_v29_apply]
  unfold val_main_v28 val_main_v27 val_main_cst_8
  rw [reduce_max_abs]
  rfl

theorem v33_eq (x : XArr) (i : S16x4096x512.Idx) : val_main_v33 (F := Ideal) x i = quant (scale (amax x)) (x i) := by
  rw [val_main_v33_apply, val_main_call4_v4_apply, val_main_call4_v3_apply, val_main_cst_11_apply, val_main_call4_v2_apply,
    val_main_call4_v1_apply, val_main_call4_v0_apply, val_main_cst_10_apply, val_main_v32_apply, val_main_v31_apply,
    val_main_v30_apply, v29_eq]
  rfl

theorem v36_eq (w : WArr) (j : S_.Idx) : val_main_v36 (F := Ideal) w j = scale (amax w) := by
  rw [val_main_v36_apply]
  unfold val_main_v35 val_main_v34 val_main_cst_12
  rw [reduce_max_abs]
  rfl

theorem v39_eq (w : WArr) (i : S512x512.Idx) : val_main_v39 (F := Ideal) w i = wquant w i := by
  rw [val_main_v39_apply, val_main_v38_apply, val_main_v37_apply, v36_eq]
  rfl

theorem v42_eq (w : WArr) (i : S512x512.Idx) :
    val_main_v42 (F := Ideal) w i = flr (Ideal.div (wquant w i) c256) := by
  rw [val_main_v42_apply, val_main_v41_apply, val_main_v40_apply, val_main_cst_14_apply, v39_eq]
  rfl

theorem v45_eq (w : WArr) (i : S512x512.Idx) :
    val_main_v45 (F := Ideal) w i = wquant w i - flr (Ideal.div (wquant w i) c256) * c256 := by
  rw [val_main_v45_apply, val_main_v44_apply, val_main_v43_apply, val_main_cst_15_apply, v42_eq, v39_eq]
  rfl

theorem lidx46_eq (b : Fin 16) (t : Fin 4096) (q k : Fin 512) : lidx_main_v46 (ix3 b t q) k = ix3 b t k :=
  funext fun a => match a with | ⟨0, _⟩ => rfl | ⟨1, _⟩ => rfl | ⟨2, _⟩ => rfl
theorem ridx46_eq (b : Fin 16) (t : Fin 4096) (q k : Fin 512) : ridx_main_v46 (ix3 b t q) k = ix2 k q :=
  funext fun a => match a with | ⟨0, _⟩ => rfl | ⟨1, _⟩ => rfl
theorem lidx49_eq (b : Fin 16) (t : Fin 4096) (q k : Fin 512) : lidx_main_v49 (ix3 b t q) k = ix3 b t k :=
  funext fun a => match a with | ⟨0, _⟩ => rfl | ⟨1, _⟩ => rfl | ⟨2, _⟩ => rfl
theorem ridx49_eq (b : Fin 16) (t : Fin 4096) (q k : Fin 512) : ridx_main_v49 (ix3 b t q) k = ix2 k q :=
  funext fun a => match a with | ⟨0, _⟩ => rfl | ⟨1, _⟩ => rfl

/-- The reference's second result, entry by entry: the same row against the second weight matrix's column. -/
theorem ref_imag_apply (x : XArr) (w : WArr) (b : Fin 16) (t : Fin 4096) (q : Fin 512) :
    val_main_v53 (F := Ideal) x w (ix3 b t q)
      = outPlanes (scale (amax x)) (fun k => x (ix3 b t k)) (wquant w) (scale (amax w)) q := by
  rw [val_main_v53_apply, val_main_v52_apply, val_main_v51_apply, v29_eq, v36_eq, val_main_v50_apply, val_main_v48_apply,
    val_main_v47_apply, val_main_cst_16_apply, val_main_v46_apply, val_main_v49_apply]
  simp only [lidx46_eq, ridx46_eq, lidx49_eq, ridx49_eq, v33_eq, v42_eq, v45_eq, Ideal.mulf_def, Ideal.addf_def,
    Ideal.ofBits_def]
  unfold outPlanes c256
  rfl

/-! ### Both results as functions of the index -/

theorem ref_real_eq (x : XArr) (w : WArr) :
    val_main_v26 (F := Ideal) x w
      = fun i => outPlanes (scale (amax x)) (fun k => x (ix3 (i 0 : Fin 16) (i 1 : Fin 4096) k)) (wquant w)
          (scale (amax w)) (i 2 : Fin 512) := by
  funext i
  obtain ⟨b, t, q, rfl⟩ : ∃ (b : Fin 16) (t : Fin 4096) (q : Fin 512), i = ix3 b t q := ⟨i 0, i 1, i 2, eq_ix3 i⟩
  exact ref_real_apply x w b t q

theorem ref_imag_eq (x : XArr) (w : WArr) :
    val_main_v53 (F := Ideal) x w
      = fun i => outPlanes (scale (amax x)) (fun k => x (ix3 (i 0 : Fin 16) (i 1 : Fin 4096) k)) (wquant w)
          (scale (amax w)) (i 2 : Fin 512) := by
  funext i
  obtain ⟨b, t, q, rfl⟩ : ∃ (b : Fin 16) (t : Fin 4096) (q : Fin 512), i = ix3 b t q := ⟨i 0, i 1, i 2, eq_ix3 i⟩
  exact ref_imag_apply x w b t q

end Cert.ReferenceIdeal.RefValue

end
-- ==== Proof.SplitAlgebra.lean ====
/-
  The law joining the two programs' splittings of the quantized product.

  A quantized activation is always a finite real: it is clamped between -32768 and 32767.  A weight
  matrix with finite entries has a finite step  ws = (sup |w|) / 32767.  If that step is zero both
  outputs are a product with  s * 0 = 0,  hence zero.  Otherwise every  w j / ws  is a finite real, its
  rounding  wq j  is a finite real, the differences  wq - wq  and  xq - xq  vanish, and both brackets
  are the real sum  sum_k xq k * wq k :  hi * 256 + (wq - hi * 256) = wq  termwise.
-/
import proofs.«134259_j19490561590113_1_alg».proof.Proof.Spec
import Mathlib.Order.ConditionallyCompleteLattice.Finset

noncomputable section

namespace Cert.QuantMatmul

open Idealize.ShloMosaic Idealize.ShloMosaic.ValueIdx
open scoped BigOperators

namespace Alg

/-- The three constants as reals. -/
theorem qmax_eq : qmax = ((32767 : ℝ) : EReal) := by
  simp [qmax, Ideal.ofBits, Ideal.ieee, -EReal.coe_mul]; norm_num
theorem qmin_eq : qmin = ((-32768 : ℝ) : EReal) := by
  simp [qmin, Ideal.ofBits, Ideal.ieee, -EReal.coe_mul]; norm_num
theorem c256_eq : c256 = ((256 : ℝ) : EReal) := by
  simp [c256, Ideal.ofBits, Ideal.ieee, -EReal.coe_mul]; norm_num

/-- The cast of the reals into the extended reals commutes with max, min and finite sums. -/
theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min
theorem coe_sum' {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A quantized activation is a finite real, whatever the quotient is. -/
theorem quant_real (s x : EReal) : ∃ r : ℝ, quant s x = (r : EReal) := by
  unfold quant
  rw [qmax_eq, qmin_eq]
  induction rnd (Ideal.div x s) using EReal.rec with
  | bot => exact ⟨min 32767 (-32768), by rw [max_eq_left bot_le, coe_min']⟩
  | top => exact ⟨32767, by rw [max_eq_right le_top, min_eq_left le_top]⟩
  | coe r => exact ⟨min 32767 (max (-32768) r), by rw [coe_min', coe_max']⟩

/-- The absolute value of a real is a real. -/
theorem absE_coe (r : ℝ) : absE (r : EReal) = ((|r| : ℝ) : EReal) := by
  unfold absE
  rw [← EReal.coe_neg, ← coe_max']
  rfl

/-- The largest absolute value of a finite array over a nonempty finite index set is a real. -/
theorem amax_real {ι : Type} [Nonempty ι] [Finite ι] (w : ι → EReal) (hw : ∀ j, ∃ r : ℝ, w j = (r : EReal)) :
    ∃ M : ℝ, amax w = (M : EReal) := by
  obtain ⟨i, hi⟩ := exists_eq_ciSup_of_finite (f := fun i => absE (w i))
  obtain ⟨r, hr⟩ := hw i
  exact ⟨|r|, by unfold amax; rw [← hi]; show absE (w i) = _; rw [hr, absE_coe]⟩

/-- The step of a finite array is a real. -/
theorem scale_real (M : ℝ) : scale (M : EReal) = ((M * (1 / 32767) : ℝ) : EReal) := by
  unfold scale
  rw [qmax_eq, Ideal.div_coe (by norm_num), EReal.coe_mul]

/-- A finite weight divided by a nonzero real step, rounded, is a real. -/
theorem rnd_div_real (a r : ℝ) (hr : r ≠ 0) : ∃ n : ℝ, rnd (Ideal.div (a : EReal) (r : EReal)) = (n : EReal) := by
  refine ⟨(Ideal.roundHalfEven (a * (1 / r)) : ℝ), ?_⟩
  unfold rnd
  rw [Ideal.div_coe hr, ← EReal.coe_mul, Ideal.liftRound_coe]

/-- Both splittings of a product of real rows are the plain sum of products. -/
theorem split_bracket (xq wr : Fin 512 → ℝ) :
    ((∑ k : Fin 512, (xq k : EReal) * (wr k : EReal)
        + ∑ k : Fin 512, (xq k : EReal) * ((wr k : EReal) - (wr k : EReal)))
      + ∑ k : Fin 512, ((xq k : EReal) - (xq k : EReal)) * (wr k : EReal))
      = ((∑ k : Fin 512, xq k * wr k : ℝ) : EReal) := by
  simp only [← EReal.coe_sub, sub_self, EReal.coe_zero, mul_zero, zero_mul, Finset.sum_const_zero, add_zero,
    ← EReal.coe_mul, ← coe_sum']

theorem planes_bracket (xq wr : Fin 512 → ℝ) :
    ((∑ k : Fin 512, (xq k : EReal) * flr (Ideal.div (wr k : EReal) c256)) * c256
      + ∑ k : Fin 512, (xq k : EReal) * ((wr k : EReal) - flr (Ideal.div (wr k : EReal) c256) * c256))
      = ((∑ k : Fin 512, xq k * wr k : ℝ) : EReal) := by
  have hf : ∀ k, flr (Ideal.div (wr k : EReal) ((256 : ℝ) : EReal)) = (((⌊wr k * (1 / 256)⌋ : ℤ) : ℝ) : EReal) := by
    intro k
    unfold flr
    rw [Ideal.div_coe (by norm_num), ← EReal.coe_mul, Ideal.liftRound_coe]
  rw [c256_eq]
  simp only [hf, ← EReal.coe_sub, ← EReal.coe_mul, ← coe_sum', ← EReal.coe_add]
  congr 1
  rw [Finset.sum_mul, ← Finset.sum_add_distrib]
  refine Finset.sum_congr rfl fun k _ => ?_
  ring

end Alg

open Alg in
/-- The two programs' outputs agree on a weight matrix with finite entries. -/
theorem outSplit_eq_outPlanes (s : EReal) (xrow : Fin 512 → EReal) (w : SW.Idx → EReal)
    (hw : ∀ j, ∃ r : ℝ, w j = (r : EReal)) (q : Fin 512) :
    outSplit s xrow (wquant w) (fun j => wquant w j - wquant w j) (scale (amax w)) q
      = outPlanes s xrow (wquant w) (scale (amax w)) q := by
  haveI : Nonempty SW.Idx := ⟨ix2 (0 : Fin 512) (0 : Fin 512)⟩
  obtain ⟨M, hM⟩ := amax_real w hw
  have hws : scale (amax w) = ((M * (1 / 32767) : ℝ) : EReal) := by rw [hM, scale_real]
  by_cases h0 : M * (1 / 32767) = 0
  · -- the weight's step is zero: both outputs are a product with zero
    unfold outSplit outPlanes
    rw [hws, h0, EReal.coe_zero, mul_zero, mul_zero, mul_zero]
  · -- the step is a nonzero real: every quantized weight is a real
    have hwq : ∀ j, ∃ n : ℝ, wquant w j = (n : EReal) := by
      intro j
      obtain ⟨a, ha⟩ := hw j
      unfold wquant
      rw [hws, ha]
      exact rnd_div_real a _ h0
    choose wr hwr using hwq
    choose xq hxq using fun k => quant_real s (xrow k)
    unfold outSplit outPlanes
    simp only [hwr, hxq]
    rw [split_bracket xq (fun k => wr (ix2 k q)), planes_bracket xq (fun k => wr (ix2 k q))]

end Cert.QuantMatmul

end
-- ==== Proof.FiniteInputs.lean ====
/-
  From the precondition to finiteness.  The precondition is the conjunction, over the three argument arrays,
  of "every entry's absolute value is below +∞".  An extended real whose absolute value is below +∞ is
  neither infinity, hence a real.
-/
import proofs.«134259_j19490561590113_1_alg».proof.Defs
import Idealize.ShloMosaic.Lib.ReduceAll
import Idealize.ShloMosaic.Lib.ValueIdx
import Idealize.ShloMosaic.Lib.Pipeline.Value
import Idealize.ShloMosaic.PureOps.Ideal

noncomputable section

namespace Cert.QuantMatmul.Finite

open Idealize.ShloMosaic Idealize.ShloMosaic.ValueIdx Cert.Pre_finite_inputs

instance : Subsingleton S_.Idx := ⟨fun a b => funext fun d => d.elim0⟩

theorem ofBits_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- One array's conjunct: the comparison of every absolute value with +∞, all true, makes every entry a real. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi
      (cmpf .olt (Host.absf x) (broadcastInDim s ![] hb (constant (F := Ideal) S_ .f32 0x7F800000#32)))
      (constantI S_ 1 1#1) hr hu j = 1#1) (i : s.Idx) : ∃ r : ℝ, x i = (r : EReal) := by
  have e := Host.reduce_andi_all _ _ _ _ _ h i
  rw [cmpf_apply, broadcastInDim_apply _ hb _ i ix0 (fun a => a.elim0)] at e
  exact real_of_abs_lt (x i) e

/-- The precondition on three arrays makes every entry of each a real. -/
theorem finite_of_fn [Facts] (x : FVec Ideal S16x4096x512 .f32) (w1 w2 : FVec Ideal S512x512 .f32)
    (h : fn (F := Ideal) x w1 w2 = fun _ => 1#1) :
    (∀ i, ∃ r : ℝ, x i = (r : EReal)) ∧ (∀ j, ∃ r : ℝ, w1 j = (r : EReal)) ∧ (∀ j, ∃ r : ℝ, w2 j = (r : EReal)) := by
  have h0 := congrFun h ix0
  dsimp only [fn] at h0
  obtain ⟨h01, h2⟩ := IntOp.andi_eq_one.1 (show IntOp.andi _ _ = 1#1 from h0)
  obtain ⟨hx, h1⟩ := IntOp.andi_eq_one.1 (show IntOp.andi _ _ = 1#1 from h01)
  exact ⟨real_of_all x _ _ _ _ hx, real_of_all w1 _ _ _ _ h1, real_of_all w2 _ _ _ _ h2⟩

open Idealize.SL.Sem in
/-- The claim's precondition, on every device: the two weight matrices (arguments 1 and 2) and the activations
    (argument 0) have real entries. -/
theorem finite_of_pre [Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal)) :=
  finite_of_fn _ _ _ (hpre c)

end Cert.QuantMatmul.Finite

end
-- ==== Proof.lean ====
/- The proof of `Cert.Claim` (proofs.«134259_j19490561590113_1_alg».proof.Defs): frame_Kernel ∧ frame_KernelIdeal ∧
   frame_ReferenceIdeal ∧ preserves_Kernel_KernelIdeal ∧ algebraic_KernelIdeal_ReferenceIdeal.

   THE PROGRAMS. The kernel program quantizes an activation array x : f32[16, 4096, 512] to 16-bit integers at the
   step  s = max|x| / 32767  (a first kernel region takes the maximum over a 32-point grid, the running maximum kept
   in a scratch between points), quantizes two weight matrices on the host at their own steps  ws = max|w| / 32767,
   splits each quantized weight into a high part and a remainder, and in a second kernel region multiplies the
   quantized activations' rows with both parts and scales by  s * ws.  The reference does the same arithmetic with the
   quantized weight split into two 8-bit planes  wq = hi * 256 + lo.

   THE THREE FRAMES. @main of the kernel program is nine segments: a host stretch, the first region, five host
   stretches, the second region, a last host stretch. The buffer contents at each boundary are a fold from the
   launch memory; over the thread state "every unscoped buffer at the boundary's contents" the segments chain, every
   weakly fair execution terminates, and the final memory is the last boundary's contents. No host operation writes
   an argument and no region has one among its arrays, so the three arguments end as launched: at the printed words
   for the kernel, at the extended reals for its idealization. The reference is host operations only: its run is
   the generated one, read at the arguments.

   PRESERVES. The idealization removed one round trip through bf16 (an extension of a truncation) in the second
   region: the rule's statement at that site's shape and formats.

   ALGEBRAIC. At the extended reals both programs end with each result entry at
   sum_k xq k * wq k  times  s * ws : the kernel program as the split sum (high part, remainder, and the activations'
   own remainder, which is zero), the reference as the two planes recombined. The precondition makes every input
   real, so the weights' maxima are real and the two forms are equal entry by entry. -/
import proofs.«134259_j19490561590113_1_alg».proof.Defs
import proofs.«134259_j19490561590113_1_alg».proof.Proof.Gen.Kernel
import proofs.«134259_j19490561590113_1_alg».proof.Proof.Gen.Kernel.Skeleton
import proofs.«134259_j19490561590113_1_alg».proof.Proof.Gen.Kernel.Launch
import proofs.«134259_j19490561590113_1_alg».proof.Proof.Gen.Kernel.Regions
import proofs.«134259_j19490561590113_1_alg».proof.Proof.Gen.Kernel.Points
import proofs.«134259_j19490561590113_1_alg».proof.Proof.Gen.KernelIdeal
import proofs.«134259_j19490561590113_1_alg».proof.Proof.Gen.KernelIdeal.Skeleton
import proofs.«134259_j19490561590113_1_alg».proof.Proof.Gen.KernelIdeal.Launch
import proofs.«134259_j19490561590113_1_alg».proof.Proof.Gen.KernelIdeal.Regions
import proofs.«134259_j19490561590113_1_alg».proof.Proof.Gen.KernelIdeal.Points
import proofs.«134259_j19490561590113_1_alg».proof.Proof.Gen.ReferenceIdeal
import proofs.«134259_j19490561590113_1_alg».proof.Proof.Gen.ReferenceIdeal.Run
import proofs.«134259_j19490561590113_1_alg».proof.Proof.Gen.Pre_finite_inputs
import proofs.«134259_j19490561590113_1_alg».proof.Proof.Launches
import proofs.«134259_j19490561590113_1_alg».proof.Proof.LaunchesBits
import proofs.«134259_j19490561590113_1_alg».proof.Proof.KernelValue
import proofs.«134259_j19490561590113_1_alg».proof.Proof.RefIsSpec
import proofs.«134259_j19490561590113_1_alg».proof.Proof.SplitAlgebra
import proofs.«134259_j19490561590113_1_alg».proof.Proof.FiniteInputs
import Idealize.ShloMosaic.Adequacy
import Idealize.ShloMosaic.Init

noncomputable section

namespace Cert.Proof

open Idealize.ShloMosaic Idealize.ShloMosaic.TcCoe Idealize.SL.Sem

/-! ## The frames and the idealization's one rewrite -/

theorem frame_k : Cert.frame_Kernel := fun m ρ _ => Cert.Kernel.Hand.frame m ρ
theorem frame_ki : Cert.frame_KernelIdeal := fun m ρ _ => Cert.KernelIdeal.Hand.frame m ρ
/-- The reference's run ends with its two results at their terms and the arguments unchanged: the frame is the
    arguments' part. -/
theorem frame_ri : Cert.frame_ReferenceIdeal := fun m ρ _ =>
  (θ_run Cert.ReferenceIdeal.defs _ _).mono (fun _ h c => (h c).2.2) (Cert.ReferenceIdeal.Value.run (F := Ideal) m ρ)

/-- The rule's statement at the site's shape and formats, by the rule's lemma. -/
theorem preserves : Cert.preserves_Kernel_KernelIdeal := IdealRules.truncf_extf.statement _ .f32 .bf16

/-! ## The two programs' results are one function of the arguments -/

section KernelSide

open Cert.KernelIdeal Cert.KernelIdeal.Gen Cert.KernelIdeal.Hand Cert.QuantMatmul Idealize.ShloMosaic.ValueIdx

/-- One result as the specification's function of the activations and one weight matrix: entry (b, t, q) is the
    quantized row (b, t) against column q of the quantized weight recombined from its two 8-bit planes, times the
    two steps. -/
def plane (x : S16x4096x512.Idx → EReal) (w : S512x512.Idx → EReal) : S16x4096x512.Idx → EReal :=
  fun i => outPlanes (scale (amax x)) (fun k => x (ix3 (i 0 : Fin 16) (i 1 : Fin 4096) k)) (wquant w) (scale (amax w)) (i 2 : Fin 512)

/-- The kernel program's first result at the last boundary is `plane` of the activations and the first weight: the
    split sum it holds is the planes' sum when the weight's entries are real, which the precondition says. -/
theorem kernel_real (m : (ℓ : Loc nD τ sig) → Buf (Elt Ideal) ℓ) (ρ : Dev nD → PrngReg) (hpre : Cert.Pre_KernelIdeal m) (c : Dev nD) :
    (W9 (F := Ideal) m ρ c (Proc.devRef .tc main_v27) : S16x4096x512.Idx → EReal)
      = plane (m ((c.tc : Thread nD τ).loc main_arg0)) (m ((c.tc : Thread nD τ).loc main_arg1)) := by
  refine (result_real m ρ c).trans ?_
  funext i
  exact outSplit_eq_outPlanes _ _ _ (Cert.QuantMatmul.Finite.finite_of_pre m hpre c).2.1 _

/-- The second result, likewise, with the second weight. -/
theorem kernel_imag (m : (ℓ : Loc nD τ sig) → Buf (Elt Ideal) ℓ) (ρ : Dev nD → PrngReg) (hpre : Cert.Pre_KernelIdeal m) (c : Dev nD) :
    (W9 (F := Ideal) m ρ c (Proc.devRef .tc main_v28) : S16x4096x512.Idx → EReal)
      = plane (m ((c.tc : Thread nD τ).loc main_arg0)) (m ((c.tc : Thread nD τ).loc main_arg2)) := by
  refine (result_imag m ρ c).trans ?_
  funext i
  exact outSplit_eq_outPlanes _ _ _ (Cert.QuantMatmul.Finite.finite_of_pre m hpre c).2.2 _

/-- The kernel program's run with its results' values: every unscoped buffer ends at the last boundary's contents,
    read at the two results and the three arguments. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v27) = plane (m ((c.tc : Thread nD τ).loc main_arg0)) (m ((c.tc : Thread nD τ).loc main_arg1))
      ∧ r.2.mem ((c.tc : Thread nD τ).loc main_v28) = plane (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) (onTc (τ := τ) (main (F := Ideal))) ⟨m, fun _ => 0, ρ⟩).mono (fun r h c =>
    ⟨(h c _ (mem_uc main_v27 (by decide))).trans (kernel_real m ρ hpre c),
     (h c _ (mem_uc main_v28 (by decide))).trans (kernel_imag m ρ hpre c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c)⟩) (run_all m ρ)

end KernelSide

/-- At the extended reals the kernel program's two results end at `plane` of the launch arrays (`kernel_run`) and the
    reference's, from a memory agreeing on the arguments, at its two result terms of the same arrays, which are
    `plane` entry by entry. -/
theorem algebraic : Cert.algebraic_KernelIdeal_ReferenceIdeal := by
  intro m ρ m' ρ' hpre hagree
  refine ⟨_, _, kernel_run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v26_eq _ _).trans ?_
    rw [(hagree c).1, (hagree c).2.1]
    exact Cert.ReferenceIdeal.RefValue.ref_real_eq _ _
  · refine (Cert.ReferenceIdeal.Read.val_main_v53_eq _ _).trans ?_
    rw [(hagree c).1, (hagree c).2.2]
    exact Cert.ReferenceIdeal.RefValue.ref_imag_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
